-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x9984 : Shape := ⟨3, ![16, 512, 9984]⟩
abbrev S16x512 : Shape := ⟨2, ![16, 512]⟩
abbrev S9984x1000 : Shape := ⟨2, ![9984, 1000]⟩
abbrev S1000 : Shape := ⟨1, ![1000]⟩
abbrev S1000x40 : Shape := ⟨2, ![1000, 40]⟩
abbrev S40 : Shape := ⟨1, ![40]⟩
abbrev S40x1 : Shape := ⟨2, ![40, 1]⟩
abbrev S1 : Shape := ⟨1, ![1]⟩
abbrev S_ : Shape := ⟨0, ![]⟩

class Facts : Prop where
  bcast_S_S16x512x9984 : S_.BroadcastsInDim S16x512x9984 (![] : Fin 0 → Fin S16x512x9984.rank)
  reducesTo_S16x512x9984_S_d0_1_2 : S16x512x9984.ReducesTo [0, 1, 2] S_
  h_S_ : 0 < S_.numel
  bcast_S_S9984x1000 : S_.BroadcastsInDim S9984x1000 (![] : Fin 0 → Fin S9984x1000.rank)
  reducesTo_S9984x1000_S_d0_1 : S9984x1000.ReducesTo [0, 1] S_
  bcast_S_S1000 : S_.BroadcastsInDim S1000 (![] : Fin 0 → Fin S1000.rank)
  reducesTo_S1000_S_d0 : S1000.ReducesTo [0] S_
  bcast_S_S1000x40 : S_.BroadcastsInDim S1000x40 (![] : Fin 0 → Fin S1000x40.rank)
  reducesTo_S1000x40_S_d0_1 : S1000x40.ReducesTo [0, 1] S_
  bcast_S_S40 : S_.BroadcastsInDim S40 (![] : Fin 0 → Fin S40.rank)
  reducesTo_S40_S_d0 : S40.ReducesTo [0] S_
  bcast_S_S40x1 : S_.BroadcastsInDim S40x1 (![] : Fin 0 → Fin S40x1.rank)
  reducesTo_S40x1_S_d0_1 : S40x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S40 .f32) (main_arg6 : FVec F S40x1 .f32) (main_arg7 : FVec F S1 .f32) (main_v13 : IVec S_ 1) (main_v16 : IVec S1000x40 1) : IVec S_ 1 :=
  let main_c_5 : IVec S_ 1 := constantI S_ 1 1#1
  let main_v17 : IVec S_ 1 := (fun x v => Host.reduce IntOp.andi x v reducesTo_S1000x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S40x1 .f32 := Host.absf main_arg6
  let main_cst_8 : FVec F S_ .f32 := constant S_ .f32 0x7F800000#32
  let main_v25 : FVec F S40x1 .f32 := broadcastInDim S40x1 ![] bcast_S_S40x1 main_cst_8
  let main_v26 : IVec S40x1 1 := cmpf .olt main_v24 main_v25
  let main_c_9 : IVec S_ 1 := constantI S_ 1 1#1
  let main_v27 : IVec S_ 1 := (fun x v => Host.reduce IntOp.andi x v reducesTo_S40x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S16x512x9984 .f32) (main_arg1 : IVec S16x512 32) (main_arg2 : FVec F S9984x1000 .f32) (main_arg3 : FVec F S1000 .f32) (main_arg4 : FVec F S1000x40 .f32) (main_arg5 : FVec F S40 .f32) (main_arg6 : FVec F S40x1 .f32) (main_arg7 : FVec F S1 .f32) : IVec S_ 1 :=
  let main_v0 : FVec F S16x512x9984 .f32 := Host.absf main_arg0
  let main_cst : FVec F S_ .f32 := constant S_ .f32 0x7F800000#32
  let main_v1 : FVec F S16x512x9984 .f32 := broadcastInDim S16x512x9984 ![] bcast_S_S16x512x9984 main_cst
  let main_v2 : IVec S16x512x9984 1 := cmpf .olt main_v0 main_v1
  let main_c : IVec S_ 1 := constantI S_ 1 1#1
  let main_v3 : IVec S_ 1 := (fun x v => Host.reduce IntOp.andi x v reducesTo_S16x512x9984_S_d0_1_2 h_S_) main_v2 main_c
  let main_v4 : FVec F S9984x1000 .f32 := Host.absf main_arg2
  let main_cst_0 : FVec F S_ .f32 := constant S_ .f32 0x7F800000#32
  let main_v5 : FVec F S9984x1000 .f32 := broadcastInDim S9984x1000 ![] bcast_S_S9984x1000 main_cst_0
  let main_v6 : IVec S9984x1000 1 := cmpf .olt main_v4 main_v5
  let main_c_1 : IVec S_ 1 := constantI S_ 1 1#1
  let main_v7 : IVec S_ 1 := (fun x v => Host.reduce IntOp.andi x v reducesTo_S9984x1000_S_d0_1 h_S_) main_v6 main_c_1
  let main_v8 : IVec S_ 1 := andi main_v3 main_v7
  let main_v9 : FVec F S1000 .f32 := Host.absf main_arg3
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  let main_v14 : FVec F S1000x40 .f32 := Host.absf main_arg4
  let main_cst_4 : FVec F S_ .f32 := constant S_ .f32 0x7F800000#32
  let main_v15 : FVec F S1000x40 .f32 := broadcastInDim S1000x40 ![] bcast_S_S1000x40 main_cst_4
  let main_v16 : IVec S1000x40 1 := cmpf .olt main_v14 main_v15
  fn_part1 (F := F) main_arg5 main_arg6 main_arg7 main_v13 main_v16
-- ==== Kernel.lean ====
abbrev S16x512x9984 : Shape := ⟨3, ![16, 512, 9984]⟩
abbrev S16x512 : Shape := ⟨2, ![16, 512]⟩
abbrev S9984x1000 : Shape := ⟨2, ![9984, 1000]⟩
abbrev S1000 : Shape := ⟨1, ![1000]⟩
abbrev S1000x40 : Shape := ⟨2, ![1000, 40]⟩
abbrev S40 : Shape := ⟨1, ![40]⟩
abbrev S40x1 : Shape := ⟨2, ![40, 1]⟩
abbrev S1 : Shape := ⟨1, ![1]⟩
abbrev S16x512x1 : Shape := ⟨3, ![16, 512, 1]⟩
abbrev S1x512x1664 : Shape := ⟨3, ![1, 512, 1664]⟩
abbrev S1x512x1 : Shape := ⟨3, ![1, 512, 1]⟩
abbrev S512x1000 : Shape := ⟨2, ![512, 1000]⟩
abbrev S512x1664 : Shape := ⟨2, ![512, 1664]⟩
abbrev S1664x1000 : Shape := ⟨2, ![1664, 1000]⟩
abbrev S1x1000 : Shape := ⟨2, ![1, 1000]⟩
abbrev S512x40 : Shape := ⟨2, ![512, 40]⟩
abbrev S1x40 : Shape := ⟨2, ![1, 40]⟩
abbrev S512x1 : Shape := ⟨2, ![512, 1]⟩
abbrev S1x1 : Shape := ⟨2, ![1, 1]⟩
abbrev S_ : Shape := ⟨0, ![]⟩
abbrev S1x1x1 : Shape := ⟨3, ![1, 1, 1]⟩

abbrev nBuf : Space → Nat
  | .hbm => 41
  | .vmem => 11
  | .smem => 0
  | _ => 0

abbrev bufTy : (tb : Table) → Fin (tcTables nBuf tb) → BufTy
  | .hbm, ⟨0, _⟩ => ⟨S16x512x9984, .f32⟩
  | .hbm, ⟨1, _⟩ => ⟨S16x512, .i32⟩
  | .hbm, ⟨2, _⟩ => ⟨S9984x1000, .f32⟩
  | .hbm, ⟨3, _⟩ => ⟨S1000, .f32⟩
  | .hbm, ⟨4, _⟩ => ⟨S1000x40, .f32⟩
  | .hbm, ⟨5, _⟩ => ⟨S40, .f32⟩
  | .hbm, ⟨6, _⟩ => ⟨S40x1, .f32⟩
  | .hbm, ⟨7, _⟩ => ⟨S1, .f32⟩
  | .hbm, ⟨8, _⟩ => ⟨S9984x1000, .bf16⟩
  | .hbm, ⟨9, _⟩ => ⟨S1000x40, .bf16⟩
  | .hbm, ⟨10, _⟩ => ⟨S40x1, .bf16⟩
  | .hbm, ⟨11, _⟩ => ⟨S16x512x1, .f32⟩
  | .hbm, ⟨12, _⟩ => ⟨S16x512, .f32⟩
  | .hbm, ⟨13, _⟩ => ⟨S_, .i32⟩
  | .hbm, ⟨14, _⟩ => ⟨S16x512, .i32⟩
  | .hbm, ⟨15, _⟩ => ⟨S16x512, .i1⟩
  | .hbm, ⟨16, _⟩ => ⟨S_, .i32⟩
  | .hbm, ⟨17, _⟩ => ⟨S16x512, .i32⟩
  | .hbm, ⟨18, _⟩ => ⟨S16x512, .i32⟩
  | .hbm, ⟨19, _⟩ => ⟨S16x512, .i32⟩
  | .hbm, ⟨20, _⟩ => ⟨S16x512x1, .i32⟩
  | .hbm, ⟨21, _⟩ => ⟨S1, .i32⟩
  | .hbm, ⟨22, _⟩ => ⟨S_, .i32⟩
  | .hbm, ⟨23, _⟩ => ⟨S16x512x1, .i32⟩
  | .hbm, ⟨24, _⟩ => ⟨S16x512x1, .i1⟩
  | .hbm, ⟨25, _⟩ => ⟨S1x1x1, .i32⟩
  | .hbm, ⟨26, _⟩ => ⟨S16x512x1, .i32⟩
  | .hbm, ⟨27, _⟩ => ⟨S16x512x1, .i1⟩
  | .hbm, ⟨28, _⟩ => ⟨S16x512x1, .i1⟩
  | .hbm, ⟨29, _⟩ => ⟨S_, .i1⟩
  | .hbm, ⟨30, _⟩ => ⟨S16x512, .i1⟩
  | .hbm, ⟨31, _⟩ => ⟨S16x512, .f32⟩
  | .hbm, ⟨32, _⟩ => ⟨S_, .f32⟩
  | .hbm, ⟨33, _⟩ => ⟨S16x512, .f32⟩
  | .hbm, ⟨34, _⟩ => ⟨S16x512, .f32⟩
  | .hbm, ⟨35, _⟩ => ⟨S_, .i32⟩
  | .hbm, ⟨36, _⟩ => ⟨S16x512, .i32⟩
  | .hbm, ⟨37, _⟩ => ⟨S16x512, .i1⟩
  | .hbm, ⟨38, _⟩ => ⟨S_, .f32⟩
  | .hbm, ⟨39, _⟩ => ⟨S16x512, .f32⟩
  | .hbm, ⟨40, _⟩ => ⟨S16x512, .f32⟩
  | .local _ .vmem, ⟨0, _⟩ => ⟨S1x512x1664, .f32⟩
  | .local _ .vmem, ⟨1, _⟩ => ⟨S1x512x1664, .f32⟩
  | .local _ .vmem, ⟨2, _⟩ => ⟨S9984x1000, .bf16⟩
  | .local _ .vmem, ⟨3, _⟩ => ⟨S1000, .f32⟩
  | .local _ .vmem, ⟨4, _⟩ => ⟨S1000x40, .bf16⟩
  | .local _ .vmem, ⟨5, _⟩ => ⟨S40, .f32⟩
  | .local _ .vmem, ⟨6, _⟩ => ⟨S40x1, .bf16⟩
  | .local _ .vmem, ⟨7, _⟩ => ⟨S1, .f32⟩
  | .local _ .vmem, ⟨8, _⟩ => ⟨S1x512x1, .f32⟩
  | .local _ .vmem, ⟨9, _⟩ => ⟨S1x512x1, .f32⟩
  | .local _ .vmem, ⟨10, _⟩ => ⟨S512x1000, .f32⟩
  | _, _ => ⟨S16x512x9984, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_cst : Ref sig .tc := ⟨.hbm, 32, rfl⟩
abbrev main_call0_v14 : Ref sig .tc := ⟨.hbm, 33, rfl⟩
abbrev main_v5 : Ref sig .tc := ⟨.hbm, 34, rfl⟩
abbrev main_c : Ref sig .tc := ⟨.hbm, 35, rfl⟩
abbrev main_v6 : Ref sig .tc := ⟨.hbm, 36, rfl⟩
abbrev main_v7 : Ref sig .tc := ⟨.hbm, 37, rfl⟩
abbrev main_cst : Ref sig .tc := ⟨.hbm, 38, rfl⟩
abbrev main_call1_v0 : Ref sig .tc := ⟨.hbm, 39, rfl⟩
abbrev main_v8 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![16, 6], ![false, false]⟩

def k0_mult1 (i : grid0.Coords) : BitVec 32 :=
  let arg1 : BitVec 32 := BitVec.ofNat 32 (i 1).val
  let c1664_i32 : BitVec 32 := 1664#32
  let v6 : BitVec 32 := Scalar.muli arg1 c1664_i32
  v6
def k0_off1 (i : grid0.Coords) : Fin 2 → Nat :=
  let arg1 : BitVec 32 := BitVec.ofNat 32 (i 1).val
  let c1664_i32 : BitVec 32 := 1664#32
  let v6 : BitVec 32 := Scalar.muli arg1 c1664_i32
  let v7 : BitVec 32 := v6
  let v8 : Index := Scalar.indexCast v7
  let c0_3 : Index := 0#32
  ![v8.toNat, 0]
def k0_cond2 (i : grid0.Coords) : BitVec 1 :=
  let arg1 : BitVec 32 := BitVec.ofNat 32 (i 1).val
  let c5_i32 : BitVec 32 := 5#32
  let v17 : BitVec 1 := Scalar.cmpi .eq arg1 c5_i32
  let v18 : BitVec 32 := Scalar.extui v17
  let c0_i32_8 : BitVec 32 := 0#32
  let v19 : BitVec 1 := Scalar.cmpi .ne v18 c0_i32_8
  v19

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S9984x1000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1000x40 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S40x1 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  bitsLt_bf16_f32 : FTy.bits .bf16 < FTy.bits .f32
  inb_S512x1000_S512x1000_0_0 : ∀ a, (![0, 0] : Fin 2 → Nat) a + S512x1000.size a ≤ S512x1000.size a
  h_S512x1000 : 0 < S512x1000.numel
  shapeCasts_S512x1000_S512x1000 : S512x1000.ShapeCasts S512x1000
  inb_S1x512x1664_S1x512x1664_0_0_0 : ∀ a, (![0, 0, 0] : Fin 3 → Nat) a + S1x512x1664.size a ≤ S1x512x1664.size a
  h_S1x512x1664 : 0 < S1x512x1664.numel
  shapeCasts_S1x512x1664_S512x1664 : S1x512x1664.ShapeCasts S512x1664
  h_S1664x1000 : 0 < S1664x1000.numel
  shapeCasts_S1664x1000_S1664x1000 : S1664x1000.ShapeCasts S1664x1000
  inb_S1000_S1000_0 : ∀ a, (![0] : Fin 1 → Nat) a + S1000.size a ≤ S1000.size a
  h_S1000 : 0 < S1000.numel
  shapeCasts_S1000_S1x1000 : S1000.ShapeCasts S1x1000
  broadcasts_S1x1000_S512x1000 : S1x1000.Broadcasts S512x1000
  inb_S1000x40_S1000x40_0_0 : ∀ a, (![0, 0] : Fin 2 → Nat) a + S1000x40.size a ≤ S1000x40.size a
  h_S1000x40 : 0 < S1000x40.numel
  shapeCasts_S1000x40_S1000x40 : S1000x40.ShapeCasts S1000x40
  inb_S40_S40_0 : ∀ a, (![0] : Fin 1 → Nat) a + S40.size a ≤ S40.size a
  h_S40 : 0 < S40.numel
  shapeCasts_S40_S1x40 : S40.ShapeCasts S1x40
  broadcasts_S1x40_S512x40 : S1x40.Broadcasts S512x40
  inb_S40x1_S40x1_0_0 : ∀ a, (![0, 0] : Fin 2 → Nat) a + S40x1.size a ≤ S40x1.size a
  h_S40x1 : 0 < S40x1.numel
  shapeCasts_S40x1_S40x1 : S40x1.ShapeCasts S40x1
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  shapeCasts_S16x512x1_S16x512 : S16x512x1.ShapeCasts S16x512
  bcast_S_S16x512 : S_.BroadcastsInDim S16x512 (![] : Fin 0 → Fin S16x512.rank)
  shapeCasts_S16x512_S16x512x1 : S16x512.ShapeCasts S16x512x1
  bcast_S_S16x512x1 : S_.BroadcastsInDim S16x512x1 (![] : Fin 0 → Fin S16x512x1.rank)
  bcast_S1_S1x1x1_2 : S1.BroadcastsInDim S1x1x1 (![2] : Fin 1 → Fin S1x1x1.rank)
  bcast_S1x1x1_S16x512x1_0_1_2 : S1x1x1.BroadcastsInDim S16x512x1 (![0, 1, 2] : Fin 3 → Fin S16x512x1.rank)
  reducesTo_S16x512x1_S16x512_d2 : S16x512x1.ReducesTo [2] S16x512
  h_S_ : 0 < S_.numel
  dot_S512x1664_S1664x1000_S512x1000_1_0_0_1_n_n_wf : DotDims.WF S512x1664 S1664x1000 S512x1000 [1] [0] [0] [1] [] []
  dot_S512x1000_S1000x40_S512x40_1_0_0_1_n_n_wf : DotDims.WF S512x1000 S1000x40 S512x40 [1] [0] [0] [1] [] []
  dot_S512x40_S40x1_S512x1_1_0_0_1_n_n_wf : DotDims.WF S512x40 S40x1 S512x1 [1] [0] [0] [1] [] []
  gather_S16x512_S16x512x1_S16x512_n_1_0_0_1_2_11_wf : GatherDims.WF S16x512 S16x512x1 S16x512 [] [1] [0] [1] [0] 2 ![1, 1]
  hrank0 : 0 < grid0.rank
  k0_mult1_dvd : ∀ i : grid0.Coords, 128 ∣ (k0_mult1 i).toNat
  k0_off1_inb : ∀ i : grid0.Coords, ∀ a, (k0_off1 i) a + S1664x1000.size a ≤ S9984x1000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1664.size a ≤ S16x512x9984.size a
  hwx0_0 : ∀ i : grid0.Coords, EltTy.bits .f32 = 32 ∨ (Rect.block (s := S16x512x9984) S1x512x1664.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9984x1000.size a ≤ S9984x1000.size a
  hwx0_1 : ∀ i : grid0.Coords, EltTy.bits .bf16 = 32 ∨ (Rect.block (s := S9984x1000) S9984x1000.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1000.size a ≤ S1000.size a
  hwx0_2 : ∀ i : grid0.Coords, EltTy.bits .f32 = 32 ∨ (Rect.block (s := S1000) S1000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1000x40.size a ≤ S1000x40.size a
  hwx0_3 : ∀ i : grid0.Coords, EltTy.bits .bf16 = 32 ∨ (Rect.block (s := S1000x40) S1000x40.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S40.size a ≤ S40.size a
  hwx0_4 : ∀ i : grid0.Coords, EltTy.bits .f32 = 32 ∨ (Rect.block (s := S40) S40.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S40x1.size a ≤ S40x1.size a
  hwx0_5 : ∀ i : grid0.Coords, EltTy.bits .bf16 = 32 ∨ (Rect.block (s := S40x1) S40x1.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x1.size a ≤ S16x512x1.size a
  hwx0_7 : ∀ i : grid0.Coords, EltTy.bits .f32 = 32 ∨ (Rect.block (s := S16x512x1) S1x512x1.size (cc0_transform_7 i) (hinb0_7 i)).WholeWords (EltTy.packing .f32)

variable [Facts₀]

def dot_S512x1664_S1664x1000_S512x1000_1_0_0_1_n_n : DotDims S512x1664 S1664x1000 S512x1000 where
  lhsContracting := [1]
  rhsContracting := [0]
  lhsNonContracting := [0]
  rhsNonContracting := [1]
  lhsBatch := []
  rhsBatch := []
  wf := dot_S512x1664_S1664x1000_S512x1000_1_0_0_1_n_n_wf
def dot_S512x1000_S1000x40_S512x40_1_0_0_1_n_n : DotDims S512x1000 S1000x40 S512x40 where
  lhsContracting := [1]
  rhsContracting := [0]
  lhsNonContracting := [0]
  rhsNonContracting := [1]
  lhsBatch := []
  rhsBatch := []
  wf := dot_S512x1000_S1000x40_S512x40_1_0_0_1_n_n_wf
def dot_S512x40_S40x1_S512x1_1_0_0_1_n_n : DotDims S512x40 S40x1 S512x1 where
  lhsContracting := [1]
  rhsContracting := [0]
  lhsNonContracting := [0]
  rhsNonContracting := [1]
  lhsBatch := []
  rhsBatch := []
  wf := dot_S512x40_S40x1_S512x1_1_0_0_1_n_n_wf
def gather_S16x512_S16x512x1_S16x512_n_1_0_0_1_2_11 : GatherDims S16x512 S16x512x1 S16x512 where
  offsetDims := []
  collapsedSliceDims := [1]
  operandBatchingDims := [0]
  startIndicesBatchingDims := [0]
  startIndexMap := [1]
  indexVectorDim := 2
  sliceSizes := ![1, 1]
  wf := gather_S16x512_S16x512x1_S16x512_n_1_0_0_1_2_11_wf

abbrev win0_0 : Pipeline.Window sig grid0 :=
  Pipeline.Window.ofSpec (Memref.whole main_arg0) S1x512x1664.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S9984x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1000x40.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S40.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S40x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S16x512x9984 : Shape := ⟨3, ![16, 512, 9984]⟩
abbrev S16x512 : Shape := ⟨2, ![16, 512]⟩
abbrev S9984x1000 : Shape := ⟨2, ![9984, 1000]⟩
abbrev S1000 : Shape := ⟨1, ![1000]⟩
abbrev S1000x40 : Shape := ⟨2, ![1000, 40]⟩
abbrev S40 : Shape := ⟨1, ![40]⟩
abbrev S40x1 : Shape := ⟨2, ![40, 1]⟩
abbrev S1 : Shape := ⟨1, ![1]⟩
abbrev S16x512x1000 : Shape := ⟨3, ![16, 512, 1000]⟩
abbrev S1x1x1000 : Shape := ⟨3, ![1, 1, 1000]⟩
abbrev S_ : Shape := ⟨0, ![]⟩
abbrev S16x512x40 : Shape := ⟨3, ![16, 512, 40]⟩
abbrev S1x1x40 : Shape := ⟨3, ![1, 1, 40]⟩
abbrev S16x512x1 : Shape := ⟨3, ![16, 512, 1]⟩
abbrev S1x1x1 : Shape := ⟨3, ![1, 1, 1]⟩

abbrev nBuf : Space → Nat
  | .hbm => 63
  | .vmem => 0
  | .smem => 0
  | _ => 0

abbrev bufTy : (tb : Table) → Fin (tcTables nBuf tb) → BufTy
  | .hbm, ⟨0, _⟩ => ⟨S16x512x9984, .f32⟩
  | .hbm, ⟨1, _⟩ => ⟨S16x512, .i32⟩
  | .hbm, ⟨2, _⟩ => ⟨S9984x1000, .f32⟩
  | .hbm, ⟨3, _⟩ => ⟨S1000, .f32⟩
  | .hbm, ⟨4, _⟩ => ⟨S1000x40, .f32⟩
  | .hbm, ⟨5, _⟩ => ⟨S40, .f32⟩
  | .hbm, ⟨6, _⟩ => ⟨S40x1, .f32⟩
  | .hbm, ⟨7, _⟩ => ⟨S1, .f32⟩
  | .hbm, ⟨8, _⟩ => ⟨S16x512x1000, .f32⟩
  | .hbm, ⟨9, _⟩ => ⟨S1x1x1000, .f32⟩
  | .hbm, ⟨10, _⟩ => ⟨S16x512x1000, .f32⟩
  | .hbm, ⟨11, _⟩ => ⟨S16x512x1000, .f32⟩
  | .hbm, ⟨12, _⟩ => ⟨S_, .f32⟩
  | .hbm, ⟨13, _⟩ => ⟨S16x512x1000, .f32⟩
  | .hbm, ⟨14, _⟩ => ⟨S16x512x1000, .f32⟩
  | .hbm, ⟨15, _⟩ => ⟨S16x512x40, .f32⟩
  | .hbm, ⟨16, _⟩ => ⟨S1x1x40, .f32⟩
  | .hbm, ⟨17, _⟩ => ⟨S16x512x40, .f32⟩
  | .hbm, ⟨18, _⟩ => ⟨S16x512x40, .f32⟩
  | .hbm, ⟨19, _⟩ => ⟨S_, .f32⟩
  | .hbm, ⟨20, _⟩ => ⟨S16x512x40, .f32⟩
  | .hbm, ⟨21, _⟩ => ⟨S16x512x40, .f32⟩
  | .hbm, ⟨22, _⟩ => ⟨S16x512x1, .f32⟩
  | .hbm, ⟨23, _⟩ => ⟨S1x1x1, .f32⟩
  | .hbm, ⟨24, _⟩ => ⟨S16x512x1, .f32⟩
  | .hbm, ⟨25, _⟩ => ⟨S16x512x1, .f32⟩
  | .hbm, ⟨26, _⟩ => ⟨S16x512x1, .f32⟩
  | .hbm, ⟨27, _⟩ => ⟨S16x512x1, .f32⟩
  | .hbm, ⟨28, _⟩ => ⟨S_, .f32⟩
  | .hbm, ⟨29, _⟩ => ⟨S16x512x1, .f32⟩
  | .hbm, ⟨30, _⟩ => ⟨S16x512x1, .f32⟩
  | .hbm, ⟨31, _⟩ => ⟨S_, .f32⟩
  | .hbm, ⟨32, _⟩ => ⟨S16x512x1, .f32⟩
  | .hbm, ⟨33, _⟩ => ⟨S16x512x1, .f32⟩
  | .hbm, ⟨34, _⟩ => ⟨S16x512, .f32⟩
  | .hbm, ⟨35, _⟩ => ⟨S_, .i32⟩
  | .hbm, ⟨36, _⟩ => ⟨S16x512, .i32⟩
  | .hbm, ⟨37, _⟩ => ⟨S16x512, .i1⟩
  | .hbm, ⟨38, _⟩ => ⟨S_, .i32⟩
  | .hbm, ⟨39, _⟩ => ⟨S16x512, .i32⟩
  | .hbm, ⟨40, _⟩ => ⟨S16x512, .i32⟩
  | .hbm, ⟨41, _⟩ => ⟨S16x512, .i32⟩
  | .hbm, ⟨42, _⟩ => ⟨S16x512x1, .i32⟩
  | .hbm, ⟨43, _⟩ => ⟨S1, .i32⟩
  | .hbm, ⟨44, _⟩ => ⟨S_, .i32⟩
  | .hbm, ⟨45, _⟩ => ⟨S16x512x1, .i32⟩
  | .hbm, ⟨46, _⟩ => ⟨S16x512x1, .i1⟩
  | .hbm, ⟨47, _⟩ => ⟨S1x1x1, .i32⟩
  | .hbm, ⟨48, _⟩ => ⟨S16x512x1, .i32⟩
  | .hbm, ⟨49, _⟩ => ⟨S16x512x1, .i1⟩
  | .hbm, ⟨50, _⟩ => ⟨S16x512x1, .i1⟩
  | .hbm, ⟨51, _⟩ => ⟨S_, .i1⟩
  | .hbm, ⟨52, _⟩ => ⟨S16x512, .i1⟩
  | .hbm, ⟨53, _⟩ => ⟨S16x512, .f32⟩
  | .hbm, ⟨54, _⟩ => ⟨S_, .f32⟩
  | .hbm, ⟨55, _⟩ => ⟨S16x512, .f32⟩
  | .hbm, ⟨56, _⟩ => ⟨S16x512, .f32⟩
  | .hbm, ⟨57, _⟩ => ⟨S_, .i32⟩
  | .hbm, ⟨58, _⟩ => ⟨S16x512, .i32⟩
  | .hbm, ⟨59, _⟩ => ⟨S16x512, .i1⟩
  | .hbm, ⟨60, _⟩ => ⟨S_, .f32⟩
  | .hbm, ⟨61, _⟩ => ⟨S16x512, .f32⟩
  | .hbm, ⟨62, _⟩ => ⟨S16x512, .f32⟩
  | _, _ => ⟨S16x512x9984, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_c_1 : Ref sig .tc := ⟨.hbm, 43, rfl⟩
abbrev main_call2_c_2 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_3 : Ref sig .tc := ⟨.hbm, 51, rfl⟩
abbrev main_call2_v12 : Ref sig .tc := ⟨.hbm, 52, rfl⟩
abbrev main_call2_v13 : Ref sig .tc := ⟨.hbm, 53, rfl⟩
abbrev main_call2_cst : Ref sig .tc := ⟨.hbm, 54, rfl⟩
abbrev main_call2_v14 : Ref sig .tc := ⟨.hbm, 55, rfl⟩
abbrev main_v21 : Ref sig .tc := ⟨.hbm, 56, rfl⟩
abbrev main_c : Ref sig .tc := ⟨.hbm, 57, rfl⟩
abbrev main_v22 : Ref sig .tc := ⟨.hbm, 58, rfl⟩
abbrev main_v23 : Ref sig .tc := ⟨.hbm, 59, rfl⟩
abbrev main_cst_1 : Ref sig .tc := ⟨.hbm, 60, rfl⟩
abbrev main_call3_v0 : Ref sig .tc := ⟨.hbm, 61, rfl⟩
abbrev main_v24 : Ref sig .tc := ⟨.hbm, 62, rfl⟩

abbrev nD : Nat := 1
abbrev τ : Topo := Topo.v7x

variable {F : FTy → Type} [FloatOps F]

class Facts₀ : Prop where
  bcast_S1000_S1x1x1000_2 : S1000.BroadcastsInDim S1x1x1000 (![2] : Fin 1 → Fin S1x1x1000.rank)
  bcast_S1x1x1000_S16x512x1000_0_1_2 : S1x1x1000.BroadcastsInDim S16x512x1000 (![0, 1, 2] : Fin 3 → Fin S16x512x1000.rank)
  bcast_S_S16x512x1000 : S_.BroadcastsInDim S16x512x1000 (![] : Fin 0 → Fin S16x512x1000.rank)
  bcast_S40_S1x1x40_2 : S40.BroadcastsInDim S1x1x40 (![2] : Fin 1 → Fin S1x1x40.rank)
  bcast_S1x1x40_S16x512x40_0_1_2 : S1x1x40.BroadcastsInDim S16x512x40 (![0, 1, 2] : Fin 3 → Fin S16x512x40.rank)
  bcast_S_S16x512x40 : S_.BroadcastsInDim S16x512x40 (![] : Fin 0 → Fin S16x512x40.rank)
  bcast_S1_S1x1x1_2 : S1.BroadcastsInDim S1x1x1 (![2] : Fin 1 → Fin S1x1x1.rank)
  bcast_S1x1x1_S16x512x1_0_1_2 : S1x1x1.BroadcastsInDim S16x512x1 (![0, 1, 2] : Fin 3 → Fin S16x512x1.rank)
  bcast_S_S16x512x1 : S_.BroadcastsInDim S16x512x1 (![] : Fin 0 → Fin S16x512x1.rank)
  shapeCasts_S16x512x1_S16x512 : S16x512x1.ShapeCasts S16x512
  bcast_S_S16x512 : S_.BroadcastsInDim S16x512 (![] : Fin 0 → Fin S16x512.rank)
  shapeCasts_S16x512_S16x512x1 : S16x512.ShapeCasts S16x512x1
  reducesTo_S16x512x1_S16x512_d2 : S16x512x1.ReducesTo [2] S16x512
  h_S_ : 0 < S_.numel
  dot_S16x512x9984_S9984x1000_S16x512x1000_2_0_01_1_n_n_wf : DotDims.WF S16x512x9984 S9984x1000 S16x512x1000 [2] [0] [0, 1] [1] [] []
  dot_S16x512x1000_S1000x40_S16x512x40_2_0_01_1_n_n_wf : DotDims.WF S16x512x1000 S1000x40 S16x512x40 [2] [0] [0, 1] [1] [] []
  dot_S16x512x40_S40x1_S16x512x1_2_0_01_1_n_n_wf : DotDims.WF S16x512x40 S40x1 S16x512x1 [2] [0] [0, 1] [1] [] []
  gather_S16x512_S16x512x1_S16x512_n_1_0_0_1_2_11_wf : GatherDims.WF S16x512 S16x512x1 S16x512 [] [1] [0] [1] [0] 2 ![1, 1]

variable [Facts₀]

def dot_S16x512x9984_S9984x1000_S16x512x1000_2_0_01_1_n_n : DotDims S16x512x9984 S9984x1000 S16x512x1000 where
  lhsContracting := [2]
  rhsContracting := [0]
  lhsNonContracting := [0, 1]
  rhsNonContracting := [1]
  lhsBatch := []
  rhsBatch := []
  wf := dot_S16x512x9984_S9984x1000_S16x512x1000_2_0_01_1_n_n_wf
def dot_S16x512x1000_S1000x40_S16x512x40_2_0_01_1_n_n : DotDims S16x512x1000 S1000x40 S16x512x40 where
  lhsContracting := [2]
  rhsContracting := [0]
  lhsNonContracting := [0, 1]
  rhsNonContracting := [1]
  lhsBatch := []
  rhsBatch := []
  wf := dot_S16x512x1000_S1000x40_S16x512x40_2_0_01_1_n_n_wf
def dot_S16x512x40_S40x1_S16x512x1_2_0_01_1_n_n : DotDims S16x512x40 S40x1 S16x512x1 where
  lhsContracting := [2]
  rhsContracting := [0]
  lhsNonContracting := [0, 1]
  rhsNonContracting := [1]
  lhsBatch := []
  rhsBatch := []
  wf := dot_S16x512x40_S40x1_S16x512x1_2_0_01_1_n_n_wf
def gather_S16x512_S16x512x1_S16x512_n_1_0_0_1_2_11 : GatherDims S16x512 S16x512x1 S16x512 where
  offsetDims := []
  collapsedSliceDims := [1]
  operandBatchingDims := [0]
  startIndicesBatchingDims := [0]
  startIndexMap := [1]
  indexVectorDim := 2
  sliceSizes := ![1, 1]
  wf := gather_S16x512_S16x512x1_S16x512_n_1_0_0_1_2_11_wf

class Facts : Prop extends Facts₀ where

variable [Facts]
-- ==== Proof.KernelPieces.lean ====
/-
  What the kernel body leaves in its buffers at one grid point, as values.

  The grid has a batch axis and a contraction axis of six steps. At every point the body adds to a [512,1000]
  accumulator, kept in a scratch buffer across the six steps of a batch, the product of the point's [512,1664] block
  of activations with the matching 1664-row panel of the first-layer weights; at the first step it zeroes the
  accumulator first, and at the last step it also writes the output block: bias, relu, second layer, bias, relu,
  third layer, bias, sigmoid of the finished accumulator. The generated frame states what each case of these
  conditionals leaves as "the stores found by running the body, read back"; the lemmas here read those stores as the
  body's pure arithmetic applied to the loaded blocks, for any float instance.
-/
import proofs.«166316_j83159156785839_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.SL.Sem Idealize.ShloMosaic.Tactic

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The panel of the resident first-layer weights the body loads at a grid point: 1664 consecutive rows from the row
    offset the point's second coordinate selects. -/
abbrev panel (i : grid0.Coords) (x1 : Vec F S9984x1000 .bf16) : Vec F S1664x1000 .bf16 :=
  View.ld x1 (Rect.unit (s := S9984x1000) (k0_off1 i) S1664x1000.size (k0_off1_inb i))

/-- At a point that is neither first nor last along the contraction axis the body leaves, in the accumulator that
    held `xs0`, `xs0` plus the product of the point's activation block with the point's weight panel. -/
theorem scratch_B (c : Dev nD) (i : grid0.Coords) (a2 : Memref sig .tc .vmem S1x512x1664 .f32) (h2 : a2.IsWhole) (a3 : Memref sig .tc .vmem S9984x1000 .bf16) (h3 : a3.IsWhole) (a4 : Memref sig .tc .vmem S1000 .f32) (h4 : a4.IsWhole) (a5 : Memref sig .tc .vmem S1000x40 .bf16) (h5 : a5.IsWhole) (a6 : Memref sig .tc .vmem S40 .f32) (h6 : a6.IsWhole) (a7 : Memref sig .tc .vmem S40x1 .bf16) (h7 : a7.IsWhole) (a8 : Memref sig .tc .vmem S1 .f32) (h8 : a8.IsWhole) (a9 : Memref sig .tc .vmem S1x512x1 .f32) (h9 : a9.IsWhole) (a10 : Memref sig .tc .vmem S512x1000 .f32) (h10 : a10.IsWhole) (hc0 : ¬cond0_0 i) (hc1 : ¬cond0_1 i)
    (x0 : Vec F S1x512x1664 .f32) (x1 : Vec F S9984x1000 .bf16) (x2 : Vec F S1000 .f32) (x3 : Vec F S1000x40 .bf16) (x4 : Vec F S40 .f32) (x5 : Vec F S40x1 .bf16) (x6 : Vec F S1 .f32) (xs0 : Vec F S512x1000 .f32) :
    sout0_B_0 c i a2 h2 a3 h3 a4 h4 a5 h5 a6 h6 a7 h7 a8 h8 a9 h9 a10 h10 hc0 hc1 x0 x1 x2 x3 x4 x5 x6 xs0 = k0_pay2 x0 (panel i x1) xs0 := by
  unfold sout0_B_0
  rw [View.read_writes_eq_canon _ _ _ (scover0_B_0 c i a2 h2 a3 h3 a4 h4 a5 h5 a6 h6 a7 h7 a8 h8 a9 h9 a10 h10 hc0 hc1 x0 x1 x2 x3 x4 x5 x6 xs0)]
  unfold kernelRun0_B
  dsimp only
  sl_unfold_words
  rw [View.canon_unit_zero hz2]
  simp only [View.readAt_eq_ld, h2.read_unread, h3.read_unread, h4.read_unread, h5.read_unread, h6.read_unread, h7.read_unread, h8.read_unread, h10.read_unread, View.ld_unit_zero (S := S1x512x1664) hz3, View.ld_unit_zero (S := S512x1000) hz2, View.ld_unit_zero (S := S1000) hz1, View.ld_unit_zero (S := S1000x40) hz2, View.ld_unit_zero (S := S40) hz1, View.ld_unit_zero (S := S40x1) hz2, View.ld_unit_zero (S := S1) hz1]
  rfl

/-- At the last point along the contraction axis the accumulator is updated in the same way, -/
theorem scratch_C (c : Dev nD) (i : grid0.Coords) (a2 : Memref sig .tc .vmem S1x512x1664 .f32) (h2 : a2.IsWhole) (a3 : Memref sig .tc .vmem S9984x1000 .bf16) (h3 : a3.IsWhole) (a4 : Memref sig .tc .vmem S1000 .f32) (h4 : a4.IsWhole) (a5 : Memref sig .tc .vmem S1000x40 .bf16) (h5 : a5.IsWhole) (a6 : Memref sig .tc .vmem S40 .f32) (h6 : a6.IsWhole) (a7 : Memref sig .tc .vmem S40x1 .bf16) (h7 : a7.IsWhole) (a8 : Memref sig .tc .vmem S1 .f32) (h8 : a8.IsWhole) (a9 : Memref sig .tc .vmem S1x512x1 .f32) (h9 : a9.IsWhole) (a10 : Memref sig .tc .vmem S512x1000 .f32) (h10 : a10.IsWhole) (hc0 : ¬cond0_0 i) (hc1 : cond0_1 i)
    (x0 : Vec F S1x512x1664 .f32) (x1 : Vec F S9984x1000 .bf16) (x2 : Vec F S1000 .f32) (x3 : Vec F S1000x40 .bf16) (x4 : Vec F S40 .f32) (x5 : Vec F S40x1 .bf16) (x6 : Vec F S1 .f32) (xs0 : Vec F S512x1000 .f32) :
    sout0_C_0 c i a2 h2 a3 h3 a4 h4 a5 h5 a6 h6 a7 h7 a8 h8 a9 h9 a10 h10 hc0 hc1 x0 x1 x2 x3 x4 x5 x6 xs0 = k0_pay2 x0 (panel i x1) xs0 := by
  unfold sout0_C_0
  rw [View.read_writes_eq_canon _ _ _ (scover0_C_0 c i a2 h2 a3 h3 a4 h4 a5 h5 a6 h6 a7 h7 a8 h8 a9 h9 a10 h10 hc0 hc1 x0 x1 x2 x3 x4 x5 x6 xs0)]
  unfold kernelRun0_C
  dsimp only
  sl_unfold_words
  rw [View.canon_unit_zero hz2]
  simp only [View.readAt_eq_ld, h2.read_unread, h3.read_unread, h4.read_unread, h5.read_unread, h6.read_unread, h7.read_unread, h8.read_unread, h10.read_unread, View.ld_unit_zero (S := S1x512x1664) hz3, View.ld_unit_zero (S := S512x1000) hz2, View.ld_unit_zero (S := S1000) hz1, View.ld_unit_zero (S := S1000x40) hz2, View.ld_unit_zero (S := S40) hz1, View.ld_unit_zero (S := S40x1) hz2, View.ld_unit_zero (S := S1) hz1]
  rfl

/-- and the output block is the two later layers and the sigmoid applied to the updated accumulator. -/
theorem out_C (c : Dev nD) (i : grid0.Coords) (a2 : Memref sig .tc .vmem S1x512x1664 .f32) (h2 : a2.IsWhole) (a3 : Memref sig .tc .vmem S9984x1000 .bf16) (h3 : a3.IsWhole) (a4 : Memref sig .tc .vmem S1000 .f32) (h4 : a4.IsWhole) (a5 : Memref sig .tc .vmem S1000x40 .bf16) (h5 : a5.IsWhole) (a6 : Memref sig .tc .vmem S40 .f32) (h6 : a6.IsWhole) (a7 : Memref sig .tc .vmem S40x1 .bf16) (h7 : a7.IsWhole) (a8 : Memref sig .tc .vmem S1 .f32) (h8 : a8.IsWhole) (a9 : Memref sig .tc .vmem S1x512x1 .f32) (h9 : a9.IsWhole) (a10 : Memref sig .tc .vmem S512x1000 .f32) (h10 : a10.IsWhole) (hc0 : ¬cond0_0 i) (hc1 : cond0_1 i)
    (x0 : Vec F S1x512x1664 .f32) (x1 : Vec F S9984x1000 .bf16) (x2 : Vec F S1000 .f32) (x3 : Vec F S1000x40 .bf16) (x4 : Vec F S40 .f32) (x5 : Vec F S40x1 .bf16) (x6 : Vec F S1 .f32) (xs0 : Vec F S512x1000 .f32) :
    out0_C_7 c i a2 h2 a3 h3 a4 h4 a5 h5 a6 h6 a7 h7 a8 h8 a9 h9 a10 h10 hc0 hc1 x0 x1 x2 x3 x4 x5 x6 xs0 = k0_pay3 (k0_pay2 x0 (panel i x1) xs0) x2 x3 x4 x5 x6 := by
  unfold out0_C_7
  rw [View.read_writes_eq_canon _ _ _ (cover0_C_7 c i a2 h2 a3 h3 a4 h4 a5 h5 a6 h6 a7 h7 a8 h8 a9 h9 a10 h10 hc0 hc1 x0 x1 x2 x3 x4 x5 x6 xs0)]
  unfold kernelRun0_C
  dsimp only
  sl_unfold_words
  rw [View.canon_unit_zero hz3, View.readCov_unit_zero (S := S512x1000) _ hz2]
  simp only [View.readAt_eq_ld, h2.read_unread, h3.read_unread, h4.read_unread, h5.read_unread, h6.read_unread, h7.read_unread, h8.read_unread, h10.read_unread, View.ld_unit_zero (S := S1x512x1664) hz3, View.ld_unit_zero (S := S512x1000) hz2, View.ld_unit_zero (S := S1000) hz1, View.ld_unit_zero (S := S1000x40) hz2, View.ld_unit_zero (S := S40) hz1, View.ld_unit_zero (S := S40x1) hz2, View.ld_unit_zero (S := S1) hz1]
  rfl

/-- At the first point along the contraction axis the accumulator is first filled with zeros, read back, and
    updated: it ends at the zero block plus the first product. -/
theorem scratch_A (c : Dev nD) (i : grid0.Coords) (a2 : Memref sig .tc .vmem S1x512x1664 .f32) (h2 : a2.IsWhole) (a3 : Memref sig .tc .vmem S9984x1000 .bf16) (h3 : a3.IsWhole) (a4 : Memref sig .tc .vmem S1000 .f32) (h4 : a4.IsWhole) (a5 : Memref sig .tc .vmem S1000x40 .bf16) (h5 : a5.IsWhole) (a6 : Memref sig .tc .vmem S40 .f32) (h6 : a6.IsWhole) (a7 : Memref sig .tc .vmem S40x1 .bf16) (h7 : a7.IsWhole) (a8 : Memref sig .tc .vmem S1 .f32) (h8 : a8.IsWhole) (a9 : Memref sig .tc .vmem S1x512x1 .f32) (h9 : a9.IsWhole) (a10 : Memref sig .tc .vmem S512x1000 .f32) (h10 : a10.IsWhole) (hc0 : cond0_0 i) (hc1 : ¬cond0_1 i)
    (x0 : Vec F S1x512x1664 .f32) (x1 : Vec F S9984x1000 .bf16) (x2 : Vec F S1000 .f32) (x3 : Vec F S1000x40 .bf16) (x4 : Vec F S40 .f32) (x5 : Vec F S40x1 .bf16) (x6 : Vec F S1 .f32) :
    sout0_A_0 c i a2 h2 a3 h3 a4 h4 a5 h5 a6 h6 a7 h7 a8 h8 a9 h9 a10 h10 hc0 hc1 x0 x1 x2 x3 x4 x5 x6 = k0_pay2 x0 (panel i x1) k0_pay1 := by
  unfold sout0_A_0
  rw [View.read_writes_eq_canon _ _ _ (scover0_A_0 c i a2 h2 a3 h3 a4 h4 a5 h5 a6 h6 a7 h7 a8 h8 a9 h9 a10 h10 hc0 hc1 x0 x1 x2 x3 x4 x5 x6)]
  unfold kernelRun0_A
  dsimp only
  sl_unfold_words
  rw [View.canon_cons_unit_zero (S := S512x1000) hz2, View.readCov_unit_zero (S := S512x1000) _ hz2]
  simp only [View.readAt_eq_ld, h2.read_unread, h3.read_unread, h4.read_unread, h5.read_unread, h6.read_unread, h7.read_unread, h8.read_unread, h10.read_unread, View.ld_unit_zero (S := S1x512x1664) hz3, View.ld_unit_zero (S := S512x1000) hz2, View.ld_unit_zero (S := S1000) hz1, View.ld_unit_zero (S := S1000x40) hz2, View.ld_unit_zero (S := S40) hz1, View.ld_unit_zero (S := S40x1) hz2, View.ld_unit_zero (S := S1) hz1]
  rfl

end Cert.KernelIdeal.Pieces

end
-- ==== Proof.KernelBlocks.lean ====
/-
  The blocks the kernel's windows hold at a grid point, read off the argument arrays.

  The grid is 16 batches by 6 steps, laid out batch-major: point `t` is batch `t / 6`, step `t % 6`. The
  activation window holds, at point `t`, the [1,512,1664] block of the activations at batch `t / 6` and hidden
  positions `1664 (t % 6) …`; the six other input windows hold whole arrays (the biases as given; the three weight
  matrices after a change of float format that the ideal instance does not see). Out of the resident first weight
  matrix the body loads the 1664 rows that match the activation block.
-/
import proofs.«166316_j83159156785839_2_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic
import proofs.«166316_j83159156785839_2_alg».proof.Proof.KernelPieces

noncomputable section

namespace Cert.KernelIdeal.Blocks

open Cert.KernelIdeal Cert.KernelIdeal.Gen
open Idealize.ShloMosaic Idealize.ShloMosaic.TcCoe Idealize.SL.Sem Idealize.ShloMosaic.ValueIdx

variable (m : (ℓ : Loc nD τ sig) → Buf (Elt Ideal) ℓ)

theorem N96 : cfg0.N = 96 := N_0

/-- Window 0's index map over the grid: (batch, 0, step). -/
theorem idx0 : ∀ t : Fin cfg0.N, win0_0.index t 0 = t.val / 6 ∧ win0_0.index t 1 = 0 ∧ win0_0.index t 2 = t.val % 6 :=
  (by decide +kernel : ∀ t : Fin grid0.N, win0_0.index t 0 = t.val / 6 ∧ win0_0.index t 1 = 0 ∧ win0_0.index t 2 = t.val % 6)

/-- The activation block of a point: batch `t / 6`, all 512 positions, hidden positions `1664 (t % 6) + d`. -/
theorem blk0_apply (c : Dev nD) (t : Fin cfg0.N) (z : Fin 1) (s : Fin 512) (d : Fin 1664)
    (hb : t.val / 6 < 16) (hd : 1664 * (t.val % 6) + d.val < 9984) :
    iblk m c 0 t (ix3 z s d) = m ((c : Thread nD τ).loc main_arg0) (ix3 ⟨t.val / 6, hb⟩ s ⟨1664 * (t.val % 6) + d.val, hd⟩) := by
  unfold iblk
  rw [View.read_apply]
  show V m c main_arg0 _ = _
  rw [V_main_arg0]
  congr 1
  funext a
  apply Fin.ext
  obtain ⟨i0, i1, i2⟩ := idx0 t
  have hz : z.val = 0 := by omega
  match a with
  | ⟨0, _⟩ => show win0_0.index t 0 * 1 + 1 * z.val = t.val / 6; rw [i0]; omega
  | ⟨1, _⟩ => show win0_0.index t 1 * 512 + 1 * s.val = s.val; rw [i1]; omega
  | ⟨2, _⟩ => show win0_0.index t 2 * 1664 + 1 * d.val = 1664 * (t.val % 6) + d.val; rw [i2]; omega

/-- Windows 1 to 6 stage whole arrays: their index maps are constantly zero. -/
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 :=
  (by decide +kernel : ∀ t : Fin grid0.N, win0_2.index t 0 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 :=
  (by decide +kernel : ∀ t : Fin grid0.N, win0_4.index t 0 = 0)
theorem idx5 : ∀ t : Fin cfg0.N, win0_5.index t 0 = 0 ∧ win0_5.index t 1 = 0 :=
  (by decide +kernel : ∀ t : Fin grid0.N, win0_5.index t 0 = 0 ∧ win0_5.index t 1 = 0)
theorem idx6 : ∀ t : Fin cfg0.N, win0_6.index t 0 = 0 :=
  (by decide +kernel : ∀ t : Fin grid0.N, win0_6.index t 0 = 0)

/-- The three weight matrices reach the kernel through a change of float format made before the call, which at the
    ideal instance changes no entry. -/
theorem V_main_v0 (c : Dev nD) : V m c main_v0 = (truncf .bf16 (m ((c : Thread nD τ).loc main_arg2) : FVec Ideal S9984x1000 .f32) bitsLt_bf16_f32 : FVec Ideal S9984x1000 .bf16) := by
  dsimp only [Gen.V, Gen.V0]
  simp only [Gen.hostOps0, List.flatten_cons, List.flatten_nil, List.append_nil, List.cons_append, List.nil_append]
  after_results

theorem V_main_v1 (c : Dev nD) : V m c main_v1 = (truncf .bf16 (m ((c : Thread nD τ).loc main_arg4) : FVec Ideal S1000x40 .f32) bitsLt_bf16_f32 : FVec Ideal S1000x40 .bf16) := by
  dsimp only [Gen.V, Gen.V0]
  simp only [Gen.hostOps0, List.flatten_cons, List.flatten_nil, List.append_nil, List.cons_append, List.nil_append]
  after_results

theorem V_main_v2 (c : Dev nD) : V m c main_v2 = (truncf .bf16 (m ((c : Thread nD τ).loc main_arg6) : FVec Ideal S40x1 .f32) bitsLt_bf16_f32 : FVec Ideal S40x1 .bf16) := by
  dsimp only [Gen.V, Gen.V0]
  simp only [Gen.hostOps0, List.flatten_cons, List.flatten_nil, List.append_nil, List.cons_append, List.nil_append]
  after_results

/-- So at every point the six resident windows read the argument arrays themselves. -/
theorem blk1_apply (c : Dev nD) (t : Fin cfg0.N) (d : Fin 9984) (h : Fin 1000) :
    iblk m c 1 t (ix2 d h) = m ((c : Thread nD τ).loc main_arg2) (ix2 d h) := by
  unfold iblk
  rw [View.read_apply]
  show V m c main_v0 _ = _
  rw [V_main_v0, truncf_apply]
  congr 1
  funext a
  apply Fin.ext
  obtain ⟨i0, i1⟩ := idx1 t
  match a with
  | ⟨0, _⟩ => show win0_1.index t 0 * 9984 + 1 * d.val = d.val; rw [i0]; omega
  | ⟨1, _⟩ => show win0_1.index t 1 * 1000 + 1 * h.val = h.val; rw [i1]; omega

theorem blk2_apply (c : Dev nD) (t : Fin cfg0.N) (h : Fin 1000) :
    iblk m c 2 t (ix1 h) = m ((c : Thread nD τ).loc main_arg3) (ix1 h) := by
  unfold iblk
  rw [View.read_apply]
  show V m c main_arg3 _ = _
  rw [V_main_arg3]
  congr 1
  funext a
  apply Fin.ext
  have i0 := idx2 t
  match a with
  | ⟨0, _⟩ => show win0_2.index t 0 * 1000 + 1 * h.val = h.val; rw [i0]; omega

theorem blk3_apply (c : Dev nD) (t : Fin cfg0.N) (h : Fin 1000) (k : Fin 40) :
    iblk m c 3 t (ix2 h k) = m ((c : Thread nD τ).loc main_arg4) (ix2 h k) := by
  unfold iblk
  rw [View.read_apply]
  show V m c main_v1 _ = _
  rw [V_main_v1, truncf_apply]
  congr 1
  funext a
  apply Fin.ext
  obtain ⟨i0, i1⟩ := idx3 t
  match a with
  | ⟨0, _⟩ => show win0_3.index t 0 * 1000 + 1 * h.val = h.val; rw [i0]; omega
  | ⟨1, _⟩ => show win0_3.index t 1 * 40 + 1 * k.val = k.val; rw [i1]; omega

theorem blk4_apply (c : Dev nD) (t : Fin cfg0.N) (k : Fin 40) :
    iblk m c 4 t (ix1 k) = m ((c : Thread nD τ).loc main_arg5) (ix1 k) := by
  unfold iblk
  rw [View.read_apply]
  show V m c main_arg5 _ = _
  rw [V_main_arg5]
  congr 1
  funext a
  apply Fin.ext
  have i0 := idx4 t
  match a with
  | ⟨0, _⟩ => show win0_4.index t 0 * 40 + 1 * k.val = k.val; rw [i0]; omega

theorem blk5_apply (c : Dev nD) (t : Fin cfg0.N) (k : Fin 40) (o : Fin 1) :
    iblk m c 5 t (ix2 k o) = m ((c : Thread nD τ).loc main_arg6) (ix2 k o) := by
  unfold iblk
  rw [View.read_apply]
  show V m c main_v2 _ = _
  rw [V_main_v2, truncf_apply]
  congr 1
  funext a
  apply Fin.ext
  obtain ⟨i0, i1⟩ := idx5 t
  match a with
  | ⟨0, _⟩ => show win0_5.index t 0 * 40 + 1 * k.val = k.val; rw [i0]; omega
  | ⟨1, _⟩ => show win0_5.index t 1 * 1 + 1 * o.val = o.val; rw [i1]; omega

theorem blk6_apply (c : Dev nD) (t : Fin cfg0.N) (o : Fin 1) :
    iblk m c 6 t (ix1 o) = m ((c : Thread nD τ).loc main_arg7) (ix1 o) := by
  unfold iblk
  rw [View.read_apply]
  show V m c main_arg7 _ = _
  rw [V_main_arg7]
  congr 1
  funext a
  apply Fin.ext
  have i0 := idx6 t
  match a with
  | ⟨0, _⟩ => show win0_6.index t 0 * 1 + 1 * o.val = o.val; rw [i0]; omega

/-- The second grid coordinate of a point is its step along the contraction axis. -/
theorem coord1 : ∀ t : Fin cfg0.N, ((grid0.coords t) 1).val = t.val % 6 :=
  (by decide +kernel : ∀ t : Fin grid0.N, ((grid0.coords t) 1).val = t.val % 6)

/-- The weight panel a point loads out of the resident matrix: rows `1664 (t % 6) + d`. -/
theorem panel_apply (t : Fin cfg0.N) (x1 : Vec Ideal S9984x1000 .bf16) (d : Fin 1664) (h : Fin 1000)
    (hd : 1664 * (t.val % 6) + d.val < 9984) :
    Cert.KernelIdeal.Pieces.panel (grid0.coords t) x1 (ix2 d h) = x1 (ix2 ⟨1664 * (t.val % 6) + d.val, hd⟩ h) := by
  show x1 _ = _
  congr 1
  funext a
  apply Fin.ext
  match a with
  | ⟨0, _⟩ => show (k0_off1 (grid0.coords t)) 0 + 1 * d.val = 1664 * (t.val % 6) + d.val; rw [k0_off1_eq, ← coord1 t]; show 1664 * _ + 1 * d.val = _; omega
  | ⟨1, _⟩ => show (k0_off1 (grid0.coords t)) 1 + 1 * h.val = h.val; rw [k0_off1_eq]; show 0 + 1 * h.val = _; omega

end Cert.KernelIdeal.Blocks

end
-- ==== Proof.LibMatmulSum.lean ====
/-
  A matrix product with ONE contracted axis, read at an output index as a sum over that axis's positions.

  At the ideal instance a `tpu.matmul` into the zero accumulator, and the host's `dot_general`, are at every
  output index the sum over the contraction index of the products of the two operands' entries. When exactly one axis is
  contracted, the contraction index is one number `k < K`; if at the output index `j` the left operand is read at
  `L k` and the right one at `R k`, the entry is `∑ k : Fin K, lhs (L k) * rhs (R k)`. The two index facts are
  the only thing a caller supplies; they hold for any layout of the contracted and free axes.
-/
import Idealize.ShloMosaic.PureOps.Ideal.Laws
import Idealize.ShloMosaic.Lib.ValueIdx

noncomputable section

namespace Idealize.ShloMosaic.MatmulSum

open Idealize.ShloMosaic Idealize.ShloMosaic.ValueIdx

variable {sl sr so : Shape} {φ₁ φ₂ : FTy}

/-- A `tpu.matmul` into the zero splat with one contracted axis of extent `K`: at `j` it is the sum over `k < K` of the
    left operand at `L k` times the right operand at `R k`, where `L k` and `R k` are the operand indices the
    dimension numbers assign to output index `j` and contraction position `k`. -/
theorem matmul_zero_apply_single (D : DotDims sl sr so) (prec : Option ContractPrecision) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.matmul D prec lhs rhs (constant so .f32 0x00000000#32) j = ∑ k : Fin K, lhs (L k) * rhs (R k) := by
  rw [Ideal.matmul_constant_zero_apply, ← Equiv.sum_comp (contrEquiv1 D K hr hs).symm]
  exact Finset.sum_congr rfl fun k _ => by rw [hL k, hR k]

/-- The host's `dot_general` with one contracted axis of extent `K`, read the same way. -/
theorem dotGeneral_apply_single (D : DotDims sl sr so) (prec : Option ContractPrecision) (sched : HostSchedule) (K : Nat)
    (hr : D.contr.rank = 1) (hs : D.contr.size ⟨0, by omega⟩ = K)
    (lhs : FVec Ideal sl φ₁) (rhs : FVec Ideal sr φ₂) (j : so.Idx) (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    FloatOps.dotGeneral D prec sched lhs rhs j = ∑ k : Fin K, lhs (L k) * rhs (R k) := by
  rw [Ideal.dotGeneral_apply, ← Equiv.sum_comp (contrEquiv1 D K hr hs).symm]
  exact Finset.sum_congr rfl fun k _ => by rw [hL k, hR k]

end Idealize.ShloMosaic.MatmulSum

end
-- ==== Proof.BodyValue.lean ====
/-
  The kernel body's arithmetic read at an index, over the extended reals.

  The body computes three arrays from the vectors it loads. The first is the zero array that starts the accumulation.
  The second adds to the accumulator one panel's contribution: at (s, h) the sum over the panel's 1664 positions d of
  x[0, s, d] · w[d, h]. The third is the head applied to the finished accumulator: the bias row added and the
  result clamped below at zero, a contraction over 1000 positions, the same again with a contraction over 40
  positions, one more bias, and the logistic function. Each is read here at explicit coordinates; all casts between
  float formats are the identity on extended reals, and a reshape that only adds or drops a unit axis keeps the
  remaining coordinates.
-/
import proofs.«166316_j83159156785839_2_alg».proof.Proof.Gen.KernelIdeal.Skeleton
import proofs.«166316_j83159156785839_2_alg».proof.Proof.LibMatmulSum
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.KernelIdeal.BodyValue

open Cert.KernelIdeal Cert.KernelIdeal.Gen Idealize.ShloMosaic Idealize.ShloMosaic.ValueIdx

/-! ## The zero array -/

/-- The array that starts the accumulation is zero everywhere. -/
theorem zero_apply (y : S512x1000.Idx) : Gen.k0_pay1 (F := Ideal) y = 0 := by
  unfold Gen.k0_pay1
  simp only [shapeCast_self]
  exact Ideal.ofBits_zero_f32

/-- Every entry of the array that starts the accumulation is zero. -/
theorem init_apply (y : S512x1000.Idx) : Gen.k0_pay1 (F := Ideal) y = 0 := zero_apply y

/-! ## One panel's contribution -/

/-- In the first contraction the left operand is read at the output's row and the contraction position. -/
theorem lhsIdx_panel (s : Fin 512) (h : Fin 1000) (k : Fin 1664) :
    dot_S512x1664_S1664x1000_S512x1000_1_0_0_1_n_n.lhsIdx (ix2 s h)
      ((contrEquiv1 dot_S512x1664_S1664x1000_S512x1000_1_0_0_1_n_n 1664 rfl rfl).symm k) = ix2 s k :=
  funext fun a => Fin.ext (by
    match a with
    | ⟨0, _⟩ =>
      show (dot_S512x1664_S1664x1000_S512x1000_1_0_0_1_n_n.lhsIdx _ _ 0).val = s.val
      unfold DotDims.lhsIdx
      rw [dif_neg (show ¬(0 : Fin S512x1664.rank) ∈ dot_S512x1664_S1664x1000_S512x1000_1_0_0_1_n_n.lhsBatch by decide),
        dif_pos (show (0 : Fin S512x1664.rank) ∈ dot_S512x1664_S1664x1000_S512x1000_1_0_0_1_n_n.lhsNonContracting by decide)]
      rfl
    | ⟨1, _⟩ =>
      exact (dot_S512x1664_S1664x1000_S512x1000_1_0_0_1_n_n.lhsIdx_val_of_single rfl _ _).trans
        (contrEquiv1_symm_val dot_S512x1664_S1664x1000_S512x1000_1_0_0_1_n_n 1664 rfl rfl k))

/-- In the first contraction the right operand is read at the contraction position and the output's column. -/
theorem rhsIdx_panel (s : Fin 512) (h : Fin 1000) (k : Fin 1664) :
    dot_S512x1664_S1664x1000_S512x1000_1_0_0_1_n_n.rhsIdx (ix2 s h)
      ((contrEquiv1 dot_S512x1664_S1664x1000_S512x1000_1_0_0_1_n_n 1664 rfl rfl).symm k) = ix2 k h :=
  funext fun a => Fin.ext (by
    match a with
    | ⟨0, _⟩ =>
      exact (dot_S512x1664_S1664x1000_S512x1000_1_0_0_1_n_n.rhsIdx_val_of_single rfl _ _).trans
        (contrEquiv1_symm_val dot_S512x1664_S1664x1000_S512x1000_1_0_0_1_n_n 1664 rfl rfl k)
    | ⟨1, _⟩ =>
      show (dot_S512x1664_S1664x1000_S512x1000_1_0_0_1_n_n.rhsIdx _ _ 1).val = h.val
      unfold DotDims.rhsIdx
      rw [dif_neg (show ¬(1 : Fin S1664x1000.rank) ∈ dot_S512x1664_S1664x1000_S512x1000_1_0_0_1_n_n.rhsBatch by decide),
        dif_pos (show (1 : Fin S1664x1000.rank) ∈ dot_S512x1664_S1664x1000_S512x1000_1_0_0_1_n_n.rhsNonContracting by decide)]
      rfl)

/-- The accumulator after one more panel: at (s, h) the old entry plus the panel's 1664 products. -/
theorem accumulate_apply (v3 : Vec Ideal S1x512x1664 .f32) (v9 : Vec Ideal S1664x1000 .bf16)
    (v11 : Vec Ideal S512x1000 .f32) (s : Fin 512) (h : Fin 1000) :
    Gen.k0_pay2 v3 v9 v11 (ix2 s h) = v11 (ix2 s h) + ∑ d : Fin 1664, v3 (ix3 0 s d) * v9 (ix2 d h) := by
  unfold Gen.k0_pay2
  simp only [shapeCast_self]
  rw [addf_apply]
  congr 1
  refine (MatmulSum.matmul_zero_apply_single (φ₁ := .bf16) (φ₂ := .bf16)
    dot_S512x1664_S1664x1000_S512x1000_1_0_0_1_n_n none 1664 rfl rfl
    (truncf .bf16 (shapeCast S512x1664 v3 shapeCasts_S1x512x1664_S512x1664) bitsLt_bf16_f32) v9
    (ix2 s h) (fun k => ix2 s k) (fun k => ix2 k h) (lhsIdx_panel s h) (rhsIdx_panel s h)).trans ?_
  refine Finset.sum_congr rfl fun d _ => ?_
  rw [truncf_apply, shapeCast_1ab_ab_apply]

/-! ## The head applied to the finished accumulator -/

/-- A bias row added to every row of an array and the result clamped below at zero, read at (p, c). -/
theorem biasClamp_apply {a b : ℕ} (x : FVec Ideal ⟨2, ![a, b]⟩ .f32) (v : FVec Ideal ⟨1, ![b]⟩ .f32)
    (h1 : (⟨1, ![b]⟩ : Shape).ShapeCasts ⟨2, ![1, b]⟩) (h2 : (⟨2, ![1, b]⟩ : Shape).Broadcasts ⟨2, ![a, b]⟩)
    (p : Fin a) (c : Fin b) :
    maximumf (addf x (broadcastTo ⟨2, ![a, b]⟩ (shapeCast ⟨2, ![1, b]⟩ v h1) h2))
        (broadcast ⟨2, ![a, b]⟩ (Scalar.ofBits (F := Ideal) .f32 0x00000000#32)) (ix2 p c)
      = max (x (ix2 p c) + v (ix1 c)) 0 := by
  rw [maximumf_apply, addf_apply, broadcastTo_1b_ab_apply, shapeCast_a_1a_apply, broadcast_apply]
  exact congrArg (max _) Ideal.ofBits_zero_f32

/-- In the second contraction the left operand is read at the output's row and the contraction position. -/
theorem lhsIdx_hidden (s : Fin 512) (c : Fin 40) (k : Fin 1000) :
    dot_S512x1000_S1000x40_S512x40_1_0_0_1_n_n.lhsIdx (ix2 s c)
      ((contrEquiv1 dot_S512x1000_S1000x40_S512x40_1_0_0_1_n_n 1000 rfl rfl).symm k) = ix2 s k :=
  funext fun a => Fin.ext (by
    match a with
    | ⟨0, _⟩ =>
      show (dot_S512x1000_S1000x40_S512x40_1_0_0_1_n_n.lhsIdx _ _ 0).val = s.val
      unfold DotDims.lhsIdx
      rw [dif_neg (show ¬(0 : Fin S512x1000.rank) ∈ dot_S512x1000_S1000x40_S512x40_1_0_0_1_n_n.lhsBatch by decide),
        dif_pos (show (0 : Fin S512x1000.rank) ∈ dot_S512x1000_S1000x40_S512x40_1_0_0_1_n_n.lhsNonContracting by decide)]
      rfl
    | ⟨1, _⟩ =>
      exact (dot_S512x1000_S1000x40_S512x40_1_0_0_1_n_n.lhsIdx_val_of_single rfl _ _).trans
        (contrEquiv1_symm_val dot_S512x1000_S1000x40_S512x40_1_0_0_1_n_n 1000 rfl rfl k))

/-- In the second contraction the right operand is read at the contraction position and the output's column. -/
theorem rhsIdx_hidden (s : Fin 512) (c : Fin 40) (k : Fin 1000) :
    dot_S512x1000_S1000x40_S512x40_1_0_0_1_n_n.rhsIdx (ix2 s c)
      ((contrEquiv1 dot_S512x1000_S1000x40_S512x40_1_0_0_1_n_n 1000 rfl rfl).symm k) = ix2 k c :=
  funext fun a => Fin.ext (by
    match a with
    | ⟨0, _⟩ =>
      exact (dot_S512x1000_S1000x40_S512x40_1_0_0_1_n_n.rhsIdx_val_of_single rfl _ _).trans
        (contrEquiv1_symm_val dot_S512x1000_S1000x40_S512x40_1_0_0_1_n_n 1000 rfl rfl k)
    | ⟨1, _⟩ =>
      show (dot_S512x1000_S1000x40_S512x40_1_0_0_1_n_n.rhsIdx _ _ 1).val = c.val
      unfold DotDims.rhsIdx
      rw [dif_neg (show ¬(1 : Fin S1000x40.rank) ∈ dot_S512x1000_S1000x40_S512x40_1_0_0_1_n_n.rhsBatch by decide),
        dif_pos (show (1 : Fin S1000x40.rank) ∈ dot_S512x1000_S1000x40_S512x40_1_0_0_1_n_n.rhsNonContracting by decide)]
      rfl)

/-- The second contraction read at an output index: the sum over its 1000 positions of the products. -/
theorem contract_hidden (x : FVec Ideal S512x1000 .bf16) (w : FVec Ideal S1000x40 .bf16) (s : Fin 512) (c : Fin 40) :
    matmul dot_S512x1000_S1000x40_S512x40_1_0_0_1_n_n none x w (constant S512x40 .f32 0x00000000#32) (ix2 s c)
      = ∑ k : Fin 1000, x (ix2 s k) * w (ix2 k c) :=
  MatmulSum.matmul_zero_apply_single (φ₁ := .bf16) (φ₂ := .bf16) dot_S512x1000_S1000x40_S512x40_1_0_0_1_n_n none 1000 rfl rfl x w
    (ix2 s c) (fun k => ix2 s k) (fun k => ix2 k c) (lhsIdx_hidden s c) (rhsIdx_hidden s c)

/-- In the third contraction the left operand is read at the output's row and the contraction position. -/
theorem lhsIdx_out (s : Fin 512) (c : Fin 1) (k : Fin 40) :
    dot_S512x40_S40x1_S512x1_1_0_0_1_n_n.lhsIdx (ix2 s c)
      ((contrEquiv1 dot_S512x40_S40x1_S512x1_1_0_0_1_n_n 40 rfl rfl).symm k) = ix2 s k :=
  funext fun a => Fin.ext (by
    match a with
    | ⟨0, _⟩ =>
      show (dot_S512x40_S40x1_S512x1_1_0_0_1_n_n.lhsIdx _ _ 0).val = s.val
      unfold DotDims.lhsIdx
      rw [dif_neg (show ¬(0 : Fin S512x40.rank) ∈ dot_S512x40_S40x1_S512x1_1_0_0_1_n_n.lhsBatch by decide),
        dif_pos (show (0 : Fin S512x40.rank) ∈ dot_S512x40_S40x1_S512x1_1_0_0_1_n_n.lhsNonContracting by decide)]
      rfl
    | ⟨1, _⟩ =>
      exact (dot_S512x40_S40x1_S512x1_1_0_0_1_n_n.lhsIdx_val_of_single rfl _ _).trans
        (contrEquiv1_symm_val dot_S512x40_S40x1_S512x1_1_0_0_1_n_n 40 rfl rfl k))

/-- In the third contraction the right operand is read at the contraction position and the output's column. -/
theorem rhsIdx_out (s : Fin 512) (c : Fin 1) (k : Fin 40) :
    dot_S512x40_S40x1_S512x1_1_0_0_1_n_n.rhsIdx (ix2 s c)
      ((contrEquiv1 dot_S512x40_S40x1_S512x1_1_0_0_1_n_n 40 rfl rfl).symm k) = ix2 k c :=
  funext fun a => Fin.ext (by
    match a with
    | ⟨0, _⟩ =>
      exact (dot_S512x40_S40x1_S512x1_1_0_0_1_n_n.rhsIdx_val_of_single rfl _ _).trans
        (contrEquiv1_symm_val dot_S512x40_S40x1_S512x1_1_0_0_1_n_n 40 rfl rfl k)
    | ⟨1, _⟩ =>
      show (dot_S512x40_S40x1_S512x1_1_0_0_1_n_n.rhsIdx _ _ 1).val = c.val
      unfold DotDims.rhsIdx
      rw [dif_neg (show ¬(1 : Fin S40x1.rank) ∈ dot_S512x40_S40x1_S512x1_1_0_0_1_n_n.rhsBatch by decide),
        dif_pos (show (1 : Fin S40x1.rank) ∈ dot_S512x40_S40x1_S512x1_1_0_0_1_n_n.rhsNonContracting by decide)]
      rfl)

/-- The third contraction read at an output index: the sum over its 40 positions of the products. -/
theorem contract_out (x : FVec Ideal S512x40 .bf16) (w : FVec Ideal S40x1 .bf16) (s : Fin 512) (c : Fin 1) :
    matmul dot_S512x40_S40x1_S512x1_1_0_0_1_n_n none x w (constant S512x1 .f32 0x00000000#32) (ix2 s c)
      = ∑ k : Fin 40, x (ix2 s k) * w (ix2 k c) :=
  MatmulSum.matmul_zero_apply_single (φ₁ := .bf16) (φ₂ := .bf16) dot_S512x40_S40x1_S512x1_1_0_0_1_n_n none 40 rfl rfl x w
    (ix2 s c) (fun k => ix2 s k) (fun k => ix2 k c) (lhsIdx_out s c) (rhsIdx_out s c)

/-- The head at position s: two clamped affine layers and a last affine layer, then the logistic function. -/
theorem epilogue_apply (v20 : Vec Ideal S512x1000 .f32) (v21 : Vec Ideal S1000 .f32) (v28 : Vec Ideal S1000x40 .bf16)
    (v31 : Vec Ideal S40 .f32) (v38 : Vec Ideal S40x1 .bf16) (v41 : Vec Ideal S1 .f32) (s : Fin 512) :
    Gen.k0_pay3 v20 v21 v28 v31 v38 v41 (ix3 0 s 0)
      = Ideal.logistic ((∑ k : Fin 40, max ((∑ h : Fin 1000, max (v20 (ix2 s h) + v21 (ix1 h)) 0 * v28 (ix2 h k))
          + v31 (ix1 k)) 0 * v38 (ix2 k 0)) + v41 (ix1 0)) := by
  unfold Gen.k0_pay3
  simp only [shapeCast_self]
  rw [shapeCast_ab_1ab_apply]
  show Ideal.logistic _ = _
  congr 1
  rw [addf_apply, broadcastTo_1b_ab_apply, shapeCast_a_1a_apply, contract_out]
  congr 1
  refine Finset.sum_congr rfl fun k _ => ?_
  rw [truncf_apply, biasClamp_apply, contract_hidden]
  congr 3
  refine Finset.sum_congr rfl fun h _ => ?_
  rw [truncf_apply, biasClamp_apply]

end Cert.KernelIdeal.BodyValue

end
-- ==== Proof.LibPadSum.lean ====
/-
  Finite sums over zero-padded index ranges and over ranges cut into blocks, in any commutative additive monoid.

    * `sum_fin_split`: a sum over `N = a + b` indices is the sum over the first `a` plus the sum over the last `b`;
    * `sum_fin_of_tail_zero`: a sum over `Fin N` whose terms vanish from index `n ≤ N` on (a contraction over an axis
      padded with zeros from `n` to `N`) is the sum of its first `n` terms;
    * `sum_range_mul_succ`: a sum over the first `m (k + 1)` naturals is the sum over the first `m k` plus the block of
      `m` terms at positions `m k + l` (a contraction accumulated block by block).
  Nothing but commutativity and associativity of `+` is used, so the lemmas hold on the extended reals.
-/
import Mathlib.Algebra.BigOperators.Fin
import Mathlib.Algebra.BigOperators.Intervals

open scoped BigOperators

namespace Cert.Interact

/-- A sum over `N = a + b` indices is the sum over the first `a` plus the sum over the last `b`. -/
theorem sum_fin_split {M : Type*} [AddCommMonoid M] {a b N : Nat} (h : N = a + b) (g : Fin N → M) :
    ∑ c : Fin N, g c
      = (∑ c : Fin a, g ⟨c.val, by have := c.isLt; omega⟩) + ∑ j : Fin b, g ⟨a + j.val, by have := j.isLt; omega⟩ := by
  subst h
  rw [Fin.sum_univ_add]
  rfl

/-- A sum whose terms vanish from index `n` on is the sum of its first `n` terms. -/
theorem sum_fin_of_tail_zero {M : Type*} [AddCommMonoid M] {n N : Nat} (h : n ≤ N) (f : Fin N → M)
    (hf : ∀ i : Fin N, n ≤ i.val → f i = 0) :
    ∑ i : Fin N, f i = ∑ i : Fin n, f (Fin.castLE h i) := by
  obtain ⟨d, rfl⟩ := Nat.exists_eq_add_of_le h
  rw [sum_fin_split rfl f]
  have tail : ∑ j : Fin d, f ⟨n + j.val, by have := j.isLt; omega⟩ = 0 :=
    Finset.sum_eq_zero fun j _ => hf _ (Nat.le_add_right n j.val)
  rw [tail, add_zero]
  rfl

/-- One more block of `m` terms: the sum over the first `m (k + 1)` naturals is the sum over the first `m k` plus the
    `m` terms at positions `m k + l`. -/
theorem sum_range_mul_succ {M : Type*} [AddCommMonoid M] (m k : ℕ) (h : ℕ → M) :
    ∑ κ ∈ Finset.range (m * (k + 1)), h κ
      = (∑ κ ∈ Finset.range (m * k), h κ) + ∑ l : Fin m, h (m * k + l.val) := by
  rw [Nat.mul_succ, Finset.sum_range_add, Finset.sum_range (fun x => h (m * k + x))]

end Cert.Interact
-- ==== Proof.MlpSpec.lean ====
/-
  The function both programs compute, stated once over the argument arrays as extended reals.

  For a batch `b`, a position `s` and the arrays X[16,512,9984], W1[9984,1000], b1[1000], W2[1000,40], b2[40],
  W3[40,1], b3[1]:

      pre1 b s h = ∑ d < 9984, X[b,s,d] · W1[d,h]
      act1 b s h = max (pre1 b s h + b1[h]) 0
      pre2 b s k = ∑ h < 1000, act1 b s h · W2[h,k]
      act2 b s k = max (pre2 b s k + b2[k]) 0
      logit b s  = (∑ k < 40, act2 b s k · W3[k,0]) + b3[0]
      prob b s   = 1 / (1 + exp (−logit b s))

  and `probs` is the [16,512,1] array of the `prob b s`. The first contraction is also stated panel by panel: the
  contracted axis of length 9984 is cut into six panels of 1664 consecutive positions, `part1 … n` is the contraction
  over the first `n` panels, one more panel adds the 1664 products of that panel (`part1_succ`), and all six panels
  are the whole contraction (`part1_six`). Only associativity and commutativity of the sum are used, so nothing here
  needs the entries to be finite.
-/
import Idealize.ShloMosaic.PureOps.Ideal.Laws
import Idealize.ShloMosaic.Lib.ValueIdx
import Idealize.ShloMosaic.Lib.IdealHost
import proofs.«166316_j83159156785839_2_alg».proof.Proof.LibPadSum

noncomputable section

namespace Cert.MlpSpec

open Idealize.ShloMosaic Idealize.ShloMosaic.ValueIdx

abbrev SX : Shape := ⟨3, ![16, 512, 9984]⟩
abbrev SW1 : Shape := ⟨2, ![9984, 1000]⟩
abbrev SB1 : Shape := ⟨1, ![1000]⟩
abbrev SW2 : Shape := ⟨2, ![1000, 40]⟩
abbrev SB2 : Shape := ⟨1, ![40]⟩
abbrev SW3 : Shape := ⟨2, ![40, 1]⟩
abbrev SB3 : Shape := ⟨1, ![1]⟩
abbrev SO : Shape := ⟨3, ![16, 512, 1]⟩

variable (X : SX.Idx → EReal) (W1 : SW1.Idx → EReal) (b1 : SB1.Idx → EReal) (W2 : SW2.Idx → EReal)
  (b2 : SB2.Idx → EReal) (W3 : SW3.Idx → EReal) (b3 : SB3.Idx → EReal)

/-- The product at position `d` of the first contraction, for every natural `d`: zero past the axis's end. -/
def term1 (b : Fin 16) (s : Fin 512) (h : Fin 1000) (d : ℕ) : EReal :=
  if hd : d < 9984 then X (ix3 b s ⟨d, hd⟩) * W1 (ix2 ⟨d, hd⟩ h) else 0

/-- The first contraction over its first `n` panels of 1664 positions. -/
def part1 (b : Fin 16) (s : Fin 512) (h : Fin 1000) (n : ℕ) : EReal :=
  ∑ d ∈ Finset.range (1664 * n), term1 X W1 b s h d

/-- The first contraction, whole. -/
def pre1 (b : Fin 16) (s : Fin 512) (h : Fin 1000) : EReal :=
  ∑ d : Fin 9984, X (ix3 b s d) * W1 (ix2 d h)

theorem part1_zero (b : Fin 16) (s : Fin 512) (h : Fin 1000) : part1 X W1 b s h 0 = 0 := by
  unfold part1; simp

/-- One more panel: the 1664 products at positions `1664 n + l`. -/
theorem part1_succ (b : Fin 16) (s : Fin 512) (h : Fin 1000) (n : ℕ) :
    part1 X W1 b s h (n + 1) = part1 X W1 b s h n + ∑ l : Fin 1664, term1 X W1 b s h (1664 * n + l.val) :=
  Cert.Interact.sum_range_mul_succ 1664 n _

/-- Six panels are the whole axis. -/
theorem part1_six (b : Fin 16) (s : Fin 512) (h : Fin 1000) : part1 X W1 b s h 6 = pre1 X W1 b s h := by
  unfold part1 pre1
  rw [show 1664 * 6 = 9984 from rfl, Finset.sum_range]
  exact Finset.sum_congr rfl fun d _ => by unfold term1; rw [dif_pos d.isLt]

def act1 (b : Fin 16) (s : Fin 512) (h : Fin 1000) : EReal := max (pre1 X W1 b s h + b1 (ix1 h)) 0

def pre2 (b : Fin 16) (s : Fin 512) (k : Fin 40) : EReal := ∑ h : Fin 1000, act1 X W1 b1 b s h * W2 (ix2 h k)

def act2 (b : Fin 16) (s : Fin 512) (k : Fin 40) : EReal := max (pre2 X W1 b1 W2 b s k + b2 (ix1 k)) 0

def logit (b : Fin 16) (s : Fin 512) : EReal :=
  (∑ k : Fin 40, act2 X W1 b1 W2 b2 b s k * W3 (ix2 k 0)) + b3 (ix1 0)

def prob (b : Fin 16) (s : Fin 512) : EReal := Ideal.logistic (logit X W1 b1 W2 b2 W3 b3 b s)

/-- The [16,512,1] array of the probabilities. -/
def probs : SO.Idx → EReal := fun i => prob X W1 b1 W2 b2 W3 b3 (i 0) (i 1)

end Cert.MlpSpec

end
-- ==== Proof.KernelAccum.lean ====
/-
  What the accumulator and the output block hold after each grid point, in closed form.

  Point `t` is batch `t / 6`, step `t % 6`. After the point the accumulator holds, at (s, h), the first contraction
  of batch `t / 6` over its first `t % 6 + 1` panels: at step 0 it is the zero block plus the first panel's
  products, and every later step adds one more panel to what the point before left (induction on the point). After
  the last step all six panels are in, which is the whole contraction; the output block written at that point is the
  two later layers and the sigmoid of it, that is the probability the specification names.
-/
import proofs.«166316_j83159156785839_2_alg».proof.Proof.KernelPieces
import proofs.«166316_j83159156785839_2_alg».proof.Proof.KernelBlocks
import proofs.«166316_j83159156785839_2_alg».proof.Proof.BodyValue
import proofs.«166316_j83159156785839_2_alg».proof.Proof.MlpSpec

set_option maxHeartbeats 1600000

noncomputable section

namespace Cert.KernelIdeal.Accum

open Cert.KernelIdeal Cert.KernelIdeal.Gen Cert.KernelIdeal.Pieces Cert.KernelIdeal.Blocks Cert.MlpSpec
open Idealize.ShloMosaic Idealize.ShloMosaic.TcCoe Idealize.SL.Sem Idealize.ShloMosaic.ValueIdx

variable (m : (ℓ : Loc nD τ sig) → Buf (Elt Ideal) ℓ)

/-- The seven float argument arrays on core `c`. -/
abbrev aX (c : Dev nD) : SX.Idx → EReal := m ((c : Thread nD τ).loc main_arg0)
abbrev aW1 (c : Dev nD) : SW1.Idx → EReal := m ((c : Thread nD τ).loc main_arg2)
abbrev aB1 (c : Dev nD) : SB1.Idx → EReal := m ((c : Thread nD τ).loc main_arg3)
abbrev aW2 (c : Dev nD) : SW2.Idx → EReal := m ((c : Thread nD τ).loc main_arg4)
abbrev aB2 (c : Dev nD) : SB2.Idx → EReal := m ((c : Thread nD τ).loc main_arg5)
abbrev aW3 (c : Dev nD) : SW3.Idx → EReal := m ((c : Thread nD τ).loc main_arg6)
abbrev aB3 (c : Dev nD) : SB3.Idx → EReal := m ((c : Thread nD τ).loc main_arg7)

/-- The blocks the seven input windows hold at a point, at their literal shapes. -/
abbrev B0 (c : Dev nD) (t : Fin cfg0.N) : Vec Ideal S1x512x1664 .f32 := iblk m c 0 t
abbrev B1 (c : Dev nD) (t : Fin cfg0.N) : Vec Ideal S9984x1000 .bf16 := iblk m c 1 t
abbrev B2 (c : Dev nD) (t : Fin cfg0.N) : Vec Ideal S1000 .f32 := iblk m c 2 t
abbrev B3 (c : Dev nD) (t : Fin cfg0.N) : Vec Ideal S1000x40 .bf16 := iblk m c 3 t
abbrev B4 (c : Dev nD) (t : Fin cfg0.N) : Vec Ideal S40 .f32 := iblk m c 4 t
abbrev B5 (c : Dev nD) (t : Fin cfg0.N) : Vec Ideal S40x1 .bf16 := iblk m c 5 t
abbrev B6 (c : Dev nD) (t : Fin cfg0.N) : Vec Ideal S1 .f32 := iblk m c 6 t

/-! ## The cases of the body, at a point of the grid -/

/-- First step of a batch: the zero block plus the first product. -/
theorem acc_first (c : Dev nD) (t : Fin cfg0.N) (h0 : t.val % 6 = 0) (h1 : ¬t.val % 6 = 5) :
    (outsAt0 m c t.val t.isLt).2 = k0_pay2 (B0 m c t) (panel (grid0.coords t) (B1 m c t)) (k0_pay1 (F := Ideal)) := by
  rw [outsAt0_A m c t h0 h1]
  dsimp only
  exact scratch_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)

/-- A middle step: what the point before left, plus this point's product. -/
theorem acc_middle (c : Dev nD) (t : Fin cfg0.N) (h0 : ¬t.val % 6 = 0) (h1 : ¬t.val % 6 = 5) :
    (outsAt0 m c t.val t.isLt).2 = k0_pay2 (B0 m c t) (panel (grid0.coords t) (B1 m c t))
      (outsAt0 m c (t.val - 1) (Nat.lt_of_le_of_lt (Nat.sub_le _ _) t.isLt)).2 := by
  rw [outsAt0_B m c t h0 h1]
  dsimp only
  exact scratch_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2

/-- The last step: the same update, -/
theorem acc_last (c : Dev nD) (t : Fin cfg0.N) (h0 : ¬t.val % 6 = 0) (h1 : t.val % 6 = 5) :
    (outsAt0 m c t.val t.isLt).2 = k0_pay2 (B0 m c t) (panel (grid0.coords t) (B1 m c t))
      (outsAt0 m c (t.val - 1) (Nat.lt_of_le_of_lt (Nat.sub_le _ _) t.isLt)).2 := by
  rw [outsAt0_C m c t h0 h1]
  dsimp only
  exact scratch_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2

/-- and the output block is the rest of the network applied to the finished accumulator. -/
theorem out_last (c : Dev nD) (t : Fin cfg0.N) (h0 : ¬t.val % 6 = 0) (h1 : t.val % 6 = 5) :
    (outsAt0 m c t.val t.isLt).1 = k0_pay3 (outsAt0 m c t.val t.isLt).2 (B2 m c t) (B3 m c t) (B4 m c t) (B5 m c t) (B6 m c t) := by
  rw [acc_last m c t h0 h1, outsAt0_C m c t h0 h1]
  dsimp only
  exact out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2

/-! ## The accumulator in closed form -/

/-- The products of a point's activation block with its weight panel are the terms of the first contraction at the
    positions `1664 (t % 6) + d` of batch `t / 6`. -/
theorem block_term (c : Dev nD) (t : Fin cfg0.N) (b : Fin 16) (hb : b.val = t.val / 6) (s : Fin 512) (h : Fin 1000) (d : Fin 1664) :
    B0 m c t (ix3 0 s d) * panel (grid0.coords t) (B1 m c t) (ix2 d h)
      = term1 (aX m c) (aW1 m c) b s h (1664 * (t.val % 6) + d.val) := by
  have hN : t.val < 96 := lt_of_lt_of_eq t.isLt N96
  have hd : 1664 * (t.val % 6) + d.val < 9984 := by have := d.isLt; omega
  have hb' : t.val / 6 < 16 := by omega
  rw [show B0 m c t (ix3 0 s d) = _ from blk0_apply m c t 0 s d hb' hd, panel_apply t (B1 m c t) d h hd, show B1 m c t _ = _ from blk1_apply m c t _ h]
  unfold term1
  rw [dif_pos hd, show (⟨t.val / 6, hb'⟩ : Fin 16) = b from Fin.ext hb.symm]

/-- One point's update at an index: what was there plus the panel's 1664 terms. -/
theorem update_apply (c : Dev nD) (t : Fin cfg0.N) (b : Fin 16) (hb : b.val = t.val / 6) (prev : Vec Ideal S512x1000 .f32) (s : Fin 512) (h : Fin 1000) :
    k0_pay2 (B0 m c t) (panel (grid0.coords t) (B1 m c t)) prev (ix2 s h)
      = prev (ix2 s h) + ∑ l : Fin 1664, term1 (aX m c) (aW1 m c) b s h (1664 * (t.val % 6) + l.val) := by
  rw [BodyValue.accumulate_apply (B0 m c t) (panel (grid0.coords t) (B1 m c t)) prev s h]
  exact congrArg _ (Finset.sum_congr rfl fun d _ => block_term m c t b hb s h d)

/-- After point `n` the accumulator holds the first contraction of batch `n / 6` over its first `n % 6 + 1` panels. -/
theorem acc_at (c : Dev nD) (n : ℕ) : ∀ (hn : n < cfg0.N) (b : Fin 16) (hb : b.val = n / 6) (s : Fin 512) (h : Fin 1000),
    (outsAt0 m c n hn).2 (ix2 s h) = part1 (aX m c) (aW1 m c) b s h (n % 6 + 1) := by
  induction n using Nat.strong_induction_on with
  | _ n ih =>
    intro hn b hb s h
    have hN : n < 96 := lt_of_lt_of_eq hn N96
    by_cases h0 : n % 6 = 0
    · have h1 : ¬n % 6 = 5 := by omega
      rw [show (outsAt0 m c n hn).2 = _ from acc_first m c ⟨n, hn⟩ h0 h1, update_apply m c ⟨n, hn⟩ b hb _ s h,
        BodyValue.init_apply, zero_add, part1_succ, show (⟨n, hn⟩ : Fin cfg0.N).val % 6 = n % 6 from rfl, h0,
        part1_zero, zero_add]
    · have hprev : (outsAt0 m c (n - 1) (Nat.lt_of_le_of_lt (Nat.sub_le _ _) hn)).2 (ix2 s h)
          = part1 (aX m c) (aW1 m c) b s h ((n - 1) % 6 + 1) :=
        ih (n - 1) (by omega) _ b (by omega) s h
      have hk : (n - 1) % 6 + 1 = n % 6 := by omega
      by_cases h1 : n % 6 = 5
      · rw [show (outsAt0 m c n hn).2 = _ from acc_last m c ⟨n, hn⟩ h0 h1, update_apply m c ⟨n, hn⟩ b hb _ s h]
        show (outsAt0 m c (n - 1) _).2 (ix2 s h) + _ = _
        rw [hprev, hk, part1_succ]
      · rw [show (outsAt0 m c n hn).2 = _ from acc_middle m c ⟨n, hn⟩ h0 h1, update_apply m c ⟨n, hn⟩ b hb _ s h]
        show (outsAt0 m c (n - 1) _).2 (ix2 s h) + _ = _
        rw [hprev, hk, part1_succ]

/-! ## The output block -/

/-- At the last step of a batch the output block holds the batch's probabilities. -/
theorem out_at (c : Dev nD) (t : Fin cfg0.N) (h5 : t.val % 6 = 5) (b : Fin 16) (hb : b.val = t.val / 6)
    (z : Fin 1) (s : Fin 512) (z' : Fin 1) :
    (outsAt0 m c t.val t.isLt).1 (ix3 z s z')
      = prob (aX m c) (aW1 m c) (aB1 m c) (aW2 m c) (aB2 m c) (aW3 m c) (aB3 m c) b s := by
  have h0 : ¬t.val % 6 = 0 := by omega
  obtain rfl : z = 0 := Subsingleton.elim _ _
  obtain rfl : z' = 0 := Subsingleton.elim _ _
  rw [out_last m c t h0 h5, BodyValue.epilogue_apply]
  have eacc : ∀ h : Fin 1000, (outsAt0 m c t.val t.isLt).2 (ix2 s h) = pre1 (aX m c) (aW1 m c) b s h := fun h => by
    rw [acc_at m c t.val t.isLt b hb s h, h5, part1_six]
  have e2 : ∀ h : Fin 1000, B2 m c t (ix1 h) = aB1 m c (ix1 h) := fun h => blk2_apply m c t h
  have e3 : ∀ (h : Fin 1000) (k : Fin 40), B3 m c t (ix2 h k) = aW2 m c (ix2 h k) := fun h k => blk3_apply m c t h k
  have e4 : ∀ k : Fin 40, B4 m c t (ix1 k) = aB2 m c (ix1 k) := fun k => blk4_apply m c t k
  have e5 : ∀ (k : Fin 40) (o : Fin 1), B5 m c t (ix2 k o) = aW3 m c (ix2 k o) := fun k o => blk5_apply m c t k o
  have e6 : ∀ o : Fin 1, B6 m c t (ix1 o) = aB3 m c (ix1 o) := fun o => blk6_apply m c t o
  simp only [eacc, e2, e3, e4, e5, e6]
  rfl

end Cert.KernelIdeal.Accum

end
-- ==== Proof.KernelFinal.lean ====
/-
  The result array after the run.

  The grid is 16 batches by 6 steps, laid out batch-major: point t is batch t / 6, step t % 6. The output's blocks are
  the [1,512,1] slabs of the [16,512,1] result array, one per batch, and a batch's slab is written back once, at
  the batch's last step (t % 6 = 5). Given that at such a point the slab about to be written holds the batch's 512
  probabilities, every index of the result array lies in exactly the slab of its batch, written at point
  6 · batch + 5, so the array ends holding the probabilities of all 16 batches.
-/
import proofs.«166316_j83159156785839_2_alg».proof.Proof.Gen.KernelIdeal.Frame
import proofs.«166316_j83159156785839_2_alg».proof.Proof.MlpSpec
import Idealize.ShloMosaic.Lib.Pipeline.Value
import Idealize.ShloMosaic.Lib.ValueIdx

noncomputable section

namespace Cert.KernelIdeal.Final

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The [16,512,1] array of probabilities computed from the seven argument arrays on core c. -/
abbrev P (c : Dev nD) : Cert.MlpSpec.SO.Idx → EReal :=
  Cert.MlpSpec.probs (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- The output window's index map over the grid: (batch, 0, 0). -/
theorem idx7 : ∀ t : Fin cfg0.N, win0_7.index t 0 = t.val / 6 ∧ win0_7.index t 1 = 0 ∧ win0_7.index t 2 = 0 :=
  (by decide +kernel : ∀ t : Fin grid0.N, win0_7.index t 0 = t.val / 6 ∧ win0_7.index t 1 = 0 ∧ win0_7.index t 2 = 0)

/-- What a batch's last step writes back is that batch's slab of the array of probabilities. -/
theorem flushed_eq
    (hout : ∀ (c : Dev nD) (t : Fin cfg0.N), t.val % 6 = 5 → ∀ (b : Fin 16), b.val = t.val / 6 →
      ∀ (z : Fin 1) (s : Fin 512) (z' : Fin 1),
        (outsAt0 m c t.val t.isLt).1 (ix3 z s z')
          = Cert.MlpSpec.prob (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b s)
    (c : Dev nD) (t : Fin cfg0.N) (hf : (cfg0.win 7).flush t = true) :
    (dats m 0 c).flushed 7 t = ((cfg0.win 7).blk t).view.read (Elt Ideal) (P m c) := by
  have h5 : t.val % 6 = 5 := (flush0_7 t).mp hf
  have hN : cfg0.N = 96 := N_0
  have hb : t.val / 6 < 16 := by have := t.isLt; omega
  show (cfg0.win 7).cut (grid0.coords t) ((dats m 0 c).after 7 t) = _
  rw [after0_7]
  funext y
  obtain ⟨z, s, z', rfl⟩ : ∃ (z : Fin 1) (s : Fin 512) (z' : Fin 1), y = ix3 z s z' := ⟨y 0, y 1, y 2, eq_ix3 y⟩
  rw [View.read_apply]
  obtain ⟨i0, i1, i2⟩ := idx7 t
  have hemb : ((cfg0.win 7).blk t).view.emb (ix3 z s z') = ix3 (⟨t.val / 6, hb⟩ : Fin 16) s (0 : Fin 1) := by
    funext a
    apply Fin.ext
    have hz : z.val = 0 := by omega
    have hz' : z'.val = 0 := by omega
    match a with
    | ⟨0, _⟩ => show win0_7.index t 0 * 1 + 1 * z.val = t.val / 6; rw [i0]; omega
    | ⟨1, _⟩ => show win0_7.index t 1 * 512 + 1 * s.val = s.val; rw [i1]; omega
    | ⟨2, _⟩ => show win0_7.index t 2 * 1 + 1 * z'.val = 0; rw [i2]; omega
  rw [hemb]
  exact hout c t h5 ⟨t.val / 6, hb⟩ rfl z s z'

/-- Every index of the result array lies in the slab written at its batch's last step. -/
theorem cover (i : S16x512x1.Idx) :
    ∃ t : Fin cfg0.N, (cfg0.win 7).flush t = true ∧ i ∈ ((cfg0.win 7).blk t).view.set := by
  have hN : cfg0.N = 96 := N_0
  have h0 : (i 0 : Nat) < 16 := (i 0).isLt
  have h1 : (i 1 : Nat) < 512 := (i 1).isLt
  have h2 : (i 2 : Nat) < 1 := (i 2).isLt
  obtain ⟨t, ht⟩ : ∃ t : Fin cfg0.N, t.val = 6 * (i 0 : Nat) + 5 := ⟨⟨6 * (i 0 : Nat) + 5, by omega⟩, rfl⟩
  obtain ⟨i0, i1, i2⟩ := idx7 t
  refine ⟨t, (flush0_7 t).mpr (by omega), ?_⟩
  show i ∈ ((View.whole main_v3).slice (win0_7.rect t)).set
  rw [View.set_slice_whole, Rect.mem_set_unit]
  intro a
  match a with
  | ⟨0, _⟩ =>
    show win0_7.index t 0 * 1 ≤ (i 0 : Nat) ∧ (i 0 : Nat) < win0_7.index t 0 * 1 + 1
    rw [i0]; omega
  | ⟨1, _⟩ =>
    show win0_7.index t 1 * 512 ≤ (i 1 : Nat) ∧ (i 1 : Nat) < win0_7.index t 1 * 512 + 512
    rw [i1]; omega
  | ⟨2, _⟩ =>
    show win0_7.index t 2 * 1 ≤ (i 2 : Nat) ∧ (i 2 : Nat) < win0_7.index t 2 * 1 + 1
    rw [i2]; omega

/-- So the result array ends holding the probabilities. -/
theorem final7
    (hout : ∀ (c : Dev nD) (t : Fin cfg0.N), t.val % 6 = 5 → ∀ (b : Fin 16), b.val = t.val / 6 →
      ∀ (z : Fin 1) (s : Fin 512) (z' : Fin 1),
        (outsAt0 m c t.val t.isLt).1 (ix3 z s z')
          = Cert.MlpSpec.prob (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b s)
    (c : Dev nD) : (dats m 0 c).arrAt 7 cfg0.N = P m c :=
  (dats m 0 c).arrAt_eq_of_cover 7 (P m c) (flushed_eq m hout c) (cover)

end Cert.KernelIdeal.Final

end
-- ==== Proof.KernelTail.lean ====
/-
  The kernel program's host tail at the ideal instance.

  After the pipelined region the kernel's @main applies the same operations as the reference's: reshape the
  [16,512,1] result of the region to [16,512], take_along_axis with the index array (wrap negative indices, gather,
  NaN outside the bounds), then where(index ≠ 0, ·, 0). The tail is kept as one opaque function `tailK` of the region's
  result array and the index array; it is never read at an index. What the run leaves in the result buffer is `tailK`
  of the region's output array (window 7's array after the last grid point) and the index argument as launched.
-/
import proofs.«166316_j83159156785839_2_alg».proof.Proof.Gen.KernelIdeal.Frame
import proofs.«166316_j83159156785839_2_alg».proof.Proof.MlpSpec
import Idealize.ShloMosaic.Lib.Pipeline.Value
import Idealize.ShloMosaic.Lib.StableHlo.Run
import Idealize.ShloMosaic.Lib.Tactic

noncomputable section

namespace Cert.KernelIdeal.Tail

open Cert.KernelIdeal Cert.KernelIdeal.Gen
open Idealize.ShloMosaic Idealize.ShloMosaic.TcCoe Idealize.ShloMosaic.Tactic Idealize.ShloMosaic.StableHlo
open Idealize.SL Idealize.SL.Sem
open Idealize.ShloMosaic.Pipeline (Dat Cfg Window)

/-- The tail both programs share, as a function of the [16,512,1] array `P` and the index array `x1`: reshape `P` to
    [16,512]; wrap negative indices around (add 512 where the index is negative); gather along the last axis; where
    the wrapped index is outside [0, 511] the result is NaN; finally where the original index is 0 the result is 0.
    It is kept opaque: it is never read at an index. -/
def tailK (P : (⟨S16x512x1, .f32⟩ : BufTy).Contents (Elt Ideal)) (x1 : (⟨S16x512, .i32⟩ : BufTy).Contents (Elt Ideal)) :
    (⟨S16x512, .f32⟩ : BufTy).Contents (Elt Ideal) :=
  select (cmpi .ne (x1) (broadcastInDim S16x512 ![] bcast_S_S16x512 (constantI S_ 32 0#32))) (select (Host.reduce IntOp.andi (andi (cmpi .sge (shapeCast _ (select (cmpi .slt (x1) (broadcastInDim S16x512 ![] bcast_S_S16x512 (constantI S_ 32 0#32))) (addi (x1) (broadcastInDim S16x512 ![] bcast_S_S16x512 (constantI S_ 32 512#32))) (x1)) shapeCasts_S16x512_S16x512x1) (broadcastInDim S16x512x1 ![] bcast_S_S16x512x1 (constantI S_ 32 0#32))) (cmpi .sle (shapeCast _ (select (cmpi .slt (x1) (broadcastInDim S16x512 ![] bcast_S_S16x512 (constantI S_ 32 0#32))) (addi (x1) (broadcastInDim S16x512 ![] bcast_S_S16x512 (constantI S_ 32 512#32))) (x1)) shapeCasts_S16x512_S16x512x1) (broadcastInDim S16x512x1 ![0, 1, 2] bcast_S1x1x1_S16x512x1_0_1_2 (broadcastInDim S1x1x1 ![2] bcast_S1_S1x1x1_2 (constantI S1 32 511#32))))) (constantI S_ 1 1#1) reducesTo_S16x512x1_S16x512_d2 h_S_) (Host.gather gather_S16x512_S16x512x1_S16x512_n_1_0_0_1_2_11 (shapeCast _ P shapeCasts_S16x512x1_S16x512) (shapeCast _ (select (cmpi .slt (x1) (broadcastInDim S16x512 ![] bcast_S_S16x512 (constantI S_ 32 0#32))) (addi (x1) (broadcastInDim S16x512 ![] bcast_S_S16x512 (constantI S_ 32 512#32))) (x1)) shapeCasts_S16x512_S16x512x1)) (broadcastInDim S16x512 ![] bcast_S_S16x512 (constant (F := Ideal) S_ .f32 0x7FC00000#32))) (broadcastInDim S16x512 ![] bcast_S_S16x512 (constant (F := Ideal) S_ .f32 0x00000000#32))

variable (m : (ℓ : Loc nD τ sig) → Buf (Elt Ideal) ℓ)

/-- After the region, the buffer the region's output window writes holds that window's array after the last point. -/
theorem tail_v3 (c : Dev nD) :
    Pipeline.withArrays (cfgs 0).spec c (V0 m c) (fun w => (dats m 0 c).arrAt w (cfgs 0).N) (Proc.devRef .tc main_v3)
      = (dats m 0 c).arrAt 7 (cfgs 0).N :=
  Pipeline.withArrays_arr spec0 launch0.win.arr_inj c _ _ 7

/-- After the region, the index argument (no window's array, written by no host operation) is as launched. -/
theorem tail_arg1 (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_of_ne _ c (V0 m c) _ main_arg1 (by exact (by decide : ∀ w, Pipeline.arrRef spec0 w ≠ main_arg1))).trans
    (V_main_arg1 m c)

set_option maxHeartbeats 1000000 in
set_option maxRecDepth 16384 in
/-- What the host operations after the region leave in the result buffer: the tail of the region's output array and
    the index argument as launched. -/
theorem result_eq (c : Dev nD) :
    Pipeline.afterTail₀ cfgs (dats m) 0 (V0 m) [hostOps1, hostOps1_1, hostOps1_2, hostOps1_3] c main_v8
      = tailK ((dats m 0 c).arrAt 7 cfg0.N) (m ((c : Thread nD τ).loc main_arg1)) := by
  unfold Pipeline.afterTail₀
  simp only [Gen.hostOps1, Gen.hostOps1_1, Gen.hostOps1_2, Gen.hostOps1_3, List.flatten_cons, List.flatten_nil, List.append_nil,
    List.cons_append, List.nil_append]
  after_results_simp
  rw [tail_v3 m c, tail_arg1 m c]
  rfl

/-- Every weakly fair execution of the kernel program terminates with its result the shared tail applied to the
    probabilities of MlpSpec (of the arguments' launch contents), the arguments unchanged — given that the region's
    output array after the last grid point is those probabilities. -/
theorem run (hfinal : ∀ c : Dev nD, (dats m 0 c).arrAt 7 cfg0.N = Cert.MlpSpec.probs (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
    (ρ : Dev nD → PrngReg) :
    θ_run defs (onTc (τ := τ) (main (F := Ideal))) ⟨m, fun _ => 0, ρ⟩ fun r => ∀ c : Dev nD,
      r.2.mem ((c.tc : Thread nD τ).loc main_v8) = tailK (Cert.MlpSpec.probs (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    ⟨((h c).2 main_v8 (Pipeline.mem_restRefs_of main_v8 (by decide) (by decide))).trans
        ((result_eq m c).trans (by rw [hfinal c])),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      ((h c).1 4).trans (((dats m 0 c).arrAt_in 4 rfl _).trans ((A_eq m c 4).trans (V_main_arg5 m c))),
      (((h c).2 main_arg6 (Pipeline.mem_restRefs_of main_arg6 (by decide) (by decide))).trans (W_main_arg6 m (dats m) c)),
      ((h c).1 6).trans (((dats m 0 c).arrAt_in 6 rfl _).trans ((A_eq m c 6).trans (V_main_arg7 m c)))⟩)
    (run_main m ρ)

end Cert.KernelIdeal.Tail

end
-- ==== Proof.RefIsSpec.lean ====
/-
  The reference program at the ideal instance computes the function of MlpSpec, followed by the shared tail.

  The reference's @main is three dense layers and a sigmoid, then a reshape, a take_along_axis and a where. Read one
  operation at a time at an index, each dot_general is the sum over its contracted axis, each bias add reads the bias
  at the last coordinate, each relu is the maximum with zero, and the last four operations are 1 / (1 + exp (−x)):
  layer by layer these are `act1`, `act2`, `logit` and `prob` of MlpSpec. The tail (reshape, index wrap-around,
  bounds mask, gather, the two selects) is kept as one opaque function `tailR` of the probabilities and the index
  array; it is never read at an index.
-/
import proofs.«166316_j83159156785839_2_alg».proof.Proof.RefRead
import proofs.«166316_j83159156785839_2_alg».proof.Proof.MlpSpec

noncomputable section

namespace Cert.ReferenceIdeal.RefSpec

open Cert.ReferenceIdeal Cert.ReferenceIdeal.Gen Idealize.ShloMosaic Idealize.ShloMosaic.TcCoe Idealize.SL.Sem Idealize.ShloMosaic.StableHlo
open Idealize.ShloMosaic.ValueIdx

/-- First layer: the value after the first relu, at the index (b, s, h), is `act1`. -/
theorem ref_act1 (x0 : (⟨S16x512x9984, .f32⟩ : BufTy).Contents (Elt Ideal)) (x2 : (⟨S9984x1000, .f32⟩ : BufTy).Contents (Elt Ideal))
    (x3 : (⟨S1000, .f32⟩ : BufTy).Contents (Elt Ideal)) (b : Fin 16) (s : Fin 512) (h : Fin 1000) :
    ReadP.val_main_v4 (F := Ideal) x0 x2 x3 (ix3 b s h) = Cert.MlpSpec.act1 x0 x2 x3 b s h := by
  rw [ReadP.val_main_v4_apply, ReadP.val_main_v3_apply, ReadP.val_main_v0_apply, ReadP.val_main_v2_apply,
    ReadP.val_main_v1_apply, ReadP.val_main_call0_v0_apply, ReadP.val_main_call0_cst_apply]
  simp only [Ideal.maximumf_def, Ideal.addf_def, Ideal.ofBits_def, Ideal.ofBits_zero_f32]
  unfold Cert.MlpSpec.act1 Cert.MlpSpec.pre1
  have el : ∀ k : Fin 9984, ReadP.lidx_main_v0 (ix3 b s h) k = ix3 b s k := fun k => funext fun a => Fin.ext (by
    match a with
    | ⟨0, _⟩ => rfl
    | ⟨1, _⟩ => rfl
    | ⟨2, _⟩ => rfl)
  have er : ∀ k : Fin 9984, ReadP.ridx_main_v0 (ix3 b s h) k = ix2 k h := fun k => funext fun a => Fin.ext (by
    match a with
    | ⟨0, _⟩ => rfl
    | ⟨1, _⟩ => rfl)
  have eb : ReadP.idx_main_v1 (ReadP.idx_main_v2 (ix3 b s h)) = ix1 h := funext fun a => Fin.ext (by
    match a with
    | ⟨0, _⟩ => rfl)
  rw [eb, Finset.sum_congr rfl fun k _ => by rw [el k, er k]]

/-- Second layer: the value after the second relu, at the index (b, s, k), is `act2`. -/
theorem ref_act2 (x0 : (⟨S16x512x9984, .f32⟩ : BufTy).Contents (Elt Ideal)) (x2 : (⟨S9984x1000, .f32⟩ : BufTy).Contents (Elt Ideal))
    (x3 : (⟨S1000, .f32⟩ : BufTy).Contents (Elt Ideal)) (x4 : (⟨S1000x40, .f32⟩ : BufTy).Contents (Elt Ideal))
    (x5 : (⟨S40, .f32⟩ : BufTy).Contents (Elt Ideal)) (b : Fin 16) (s : Fin 512) (k : Fin 40) :
    ReadP.val_main_v9 (F := Ideal) x0 x2 x3 x4 x5 (ix3 b s k) = Cert.MlpSpec.act2 x0 x2 x3 x4 x5 b s k := by
  rw [ReadP.val_main_v9_apply, ReadP.val_main_v8_apply, ReadP.val_main_v5_apply, ReadP.val_main_v7_apply,
    ReadP.val_main_v6_apply, ReadP.val_main_call1_v0_apply, ReadP.val_main_call1_cst_apply]
  simp only [Ideal.maximumf_def, Ideal.addf_def, Ideal.ofBits_def, Ideal.ofBits_zero_f32]
  unfold Cert.MlpSpec.act2 Cert.MlpSpec.pre2
  have el : ∀ h : Fin 1000, ReadP.lidx_main_v5 (ix3 b s k) h = ix3 b s h := fun h => funext fun a => Fin.ext (by
    match a with
    | ⟨0, _⟩ => rfl
    | ⟨1, _⟩ => rfl
    | ⟨2, _⟩ => rfl)
  have er : ∀ h : Fin 1000, ReadP.ridx_main_v5 (ix3 b s k) h = ix2 h k := fun h => funext fun a => Fin.ext (by
    match a with
    | ⟨0, _⟩ => rfl
    | ⟨1, _⟩ => rfl)
  have eb : ReadP.idx_main_v6 (ReadP.idx_main_v7 (ix3 b s k)) = ix1 k := funext fun a => Fin.ext (by
    match a with
    | ⟨0, _⟩ => rfl)
  rw [eb, Finset.sum_congr rfl fun h _ => by rw [el h, er h, ref_act1]]

/-- Third layer: the value before the sigmoid, at the index (b, s, 0), is `logit`. -/
theorem ref_logit (x0 : (⟨S16x512x9984, .f32⟩ : BufTy).Contents (Elt Ideal)) (x2 : (⟨S9984x1000, .f32⟩ : BufTy).Contents (Elt Ideal))
    (x3 : (⟨S1000, .f32⟩ : BufTy).Contents (Elt Ideal)) (x4 : (⟨S1000x40, .f32⟩ : BufTy).Contents (Elt Ideal))
    (x5 : (⟨S40, .f32⟩ : BufTy).Contents (Elt Ideal)) (x6 : (⟨S40x1, .f32⟩ : BufTy).Contents (Elt Ideal))
    (x7 : (⟨S1, .f32⟩ : BufTy).Contents (Elt Ideal)) (b : Fin 16) (s : Fin 512) :
    ReadP.val_main_v13 (F := Ideal) x0 x2 x3 x4 x5 x6 x7 (ix3 b s (0 : Fin 1)) = Cert.MlpSpec.logit x0 x2 x3 x4 x5 x6 x7 b s := by
  rw [ReadP.val_main_v13_apply, ReadP.val_main_v10_apply, ReadP.val_main_v12_apply, ReadP.val_main_v11_apply]
  simp only [Ideal.addf_def]
  unfold Cert.MlpSpec.logit
  have el : ∀ k : Fin 40, ReadP.lidx_main_v10 (ix3 b s (0 : Fin 1)) k = ix3 b s k := fun k => funext fun a => Fin.ext (by
    match a with
    | ⟨0, _⟩ => rfl
    | ⟨1, _⟩ => rfl
    | ⟨2, _⟩ => rfl)
  have er : ∀ k : Fin 40, ReadP.ridx_main_v10 (ix3 b s (0 : Fin 1)) k = ix2 k (0 : Fin 1) := fun k => funext fun a => Fin.ext (by
    match a with
    | ⟨0, _⟩ => rfl
    | ⟨1, _⟩ => rfl)
  have eb : ReadP.idx_main_v11 (ReadP.idx_main_v12 (ix3 b s (0 : Fin 1))) = ix1 (0 : Fin 1) := funext fun a => Fin.ext (by
    match a with
    | ⟨0, _⟩ => rfl)
  rw [eb, Finset.sum_congr rfl fun k _ => by rw [el k, er k, ref_act2]]

/-- The reference's value before the tail is the array of probabilities. -/
theorem ref_probs (x0 : (⟨S16x512x9984, .f32⟩ : BufTy).Contents (Elt Ideal)) (x2 : (⟨S9984x1000, .f32⟩ : BufTy).Contents (Elt Ideal))
    (x3 : (⟨S1000, .f32⟩ : BufTy).Contents (Elt Ideal)) (x4 : (⟨S1000x40, .f32⟩ : BufTy).Contents (Elt Ideal))
    (x5 : (⟨S40, .f32⟩ : BufTy).Contents (Elt Ideal)) (x6 : (⟨S40x1, .f32⟩ : BufTy).Contents (Elt Ideal))
    (x7 : (⟨S1, .f32⟩ : BufTy).Contents (Elt Ideal)) :
    ReadP.val_main_v19 (F := Ideal) x0 x2 x3 x4 x5 x6 x7 = Cert.MlpSpec.probs x0 x2 x3 x4 x5 x6 x7 := by
  funext i
  obtain ⟨b, s, z, rfl⟩ : ∃ (b : Fin 16) (s : Fin 512) (z : Fin 1), i = ix3 b s z := ⟨i 0, i 1, i 2, eq_ix3 i⟩
  obtain rfl : z = 0 := Subsingleton.elim _ _
  show _ = Cert.MlpSpec.prob x0 x2 x3 x4 x5 x6 x7 b s
  rw [ReadP.val_main_v19_apply, ReadP.val_main_v18_apply, ReadP.val_main_cst_0_apply, ReadP.val_main_v17_apply,
    ReadP.val_main_v16_apply, ReadP.val_main_cst_apply, ReadP.val_main_v15_apply, ReadP.val_main_v14_apply, ref_logit]
  simp only [Ideal.hostDivf_def, Ideal.ofBits_def, Ideal.ofBits_one_f32, Ideal.addf_def, Ideal.hostUnary_exp_def,
    Ideal.hostNegf_def, Ideal.negf_def]
  rfl

/-- The tail both programs share, as a function of the [16,512,1] probabilities `P` and the index array `x1`: reshape
    `P` to [16,512]; wrap negative indices around (add 512 where the index is negative); gather along the last axis;
    where the wrapped index is outside [0, 511] the result is NaN; finally where the original index is 0 the result
    is 0. It is kept opaque: it is never read at an index. -/
def tailR (P : (⟨S16x512x1, .f32⟩ : BufTy).Contents (Elt Ideal)) (x1 : (⟨S16x512, .i32⟩ : BufTy).Contents (Elt Ideal)) :
    (⟨S16x512, .f32⟩ : BufTy).Contents (Elt Ideal) :=
  select (cmpi .ne (x1) (broadcastInDim S16x512 ![] bcast_S_S16x512 (constantI S_ 32 0#32))) (select (Host.reduce IntOp.andi (andi (cmpi .sge (shapeCast _ (select (cmpi .slt (x1) (broadcastInDim S16x512 ![] bcast_S_S16x512 (constantI S_ 32 0#32))) (addi (x1) (broadcastInDim S16x512 ![] bcast_S_S16x512 (constantI S_ 32 512#32))) (x1)) shapeCasts_S16x512_S16x512x1) (broadcastInDim S16x512x1 ![] bcast_S_S16x512x1 (constantI S_ 32 0#32))) (cmpi .sle (shapeCast _ (select (cmpi .slt (x1) (broadcastInDim S16x512 ![] bcast_S_S16x512 (constantI S_ 32 0#32))) (addi (x1) (broadcastInDim S16x512 ![] bcast_S_S16x512 (constantI S_ 32 512#32))) (x1)) shapeCasts_S16x512_S16x512x1) (broadcastInDim S16x512x1 ![0, 1, 2] bcast_S1x1x1_S16x512x1_0_1_2 (broadcastInDim S1x1x1 ![2] bcast_S1_S1x1x1_2 (constantI S1 32 511#32))))) (constantI S_ 1 1#1) reducesTo_S16x512x1_S16x512_d2 h_S_) (Host.gather gather_S16x512_S16x512x1_S16x512_n_1_0_0_1_2_11 (shapeCast _ P shapeCasts_S16x512x1_S16x512) (shapeCast _ (select (cmpi .slt (x1) (broadcastInDim S16x512 ![] bcast_S_S16x512 (constantI S_ 32 0#32))) (addi (x1) (broadcastInDim S16x512 ![] bcast_S_S16x512 (constantI S_ 32 512#32))) (x1)) shapeCasts_S16x512_S16x512x1)) (broadcastInDim S16x512 ![] bcast_S_S16x512 (constant (F := Ideal) S_ .f32 0x7FC00000#32))) (broadcastInDim S16x512 ![] bcast_S_S16x512 (constant (F := Ideal) S_ .f32 0x00000000#32))

/-- The reference's result is the tail applied to its value before the tail. -/
theorem val_v24_tail (x0 : (⟨S16x512x9984, .f32⟩ : BufTy).Contents (Elt Ideal)) (x1 : (⟨S16x512, .i32⟩ : BufTy).Contents (Elt Ideal))
    (x2 : (⟨S9984x1000, .f32⟩ : BufTy).Contents (Elt Ideal)) (x3 : (⟨S1000, .f32⟩ : BufTy).Contents (Elt Ideal))
    (x4 : (⟨S1000x40, .f32⟩ : BufTy).Contents (Elt Ideal)) (x5 : (⟨S40, .f32⟩ : BufTy).Contents (Elt Ideal))
    (x6 : (⟨S40x1, .f32⟩ : BufTy).Contents (Elt Ideal)) (x7 : (⟨S1, .f32⟩ : BufTy).Contents (Elt Ideal)) :
    ReadP.val_main_v24 (F := Ideal) x0 x1 x2 x3 x4 x5 x6 x7
      = tailR (ReadP.val_main_v19 (F := Ideal) x0 x2 x3 x4 x5 x6 x7) x1 := rfl

/-- The reference's result is the shared tail applied to the probabilities of MlpSpec. -/
theorem val_v24_spec (x0 : (⟨S16x512x9984, .f32⟩ : BufTy).Contents (Elt Ideal)) (x1 : (⟨S16x512, .i32⟩ : BufTy).Contents (Elt Ideal))
    (x2 : (⟨S9984x1000, .f32⟩ : BufTy).Contents (Elt Ideal)) (x3 : (⟨S1000, .f32⟩ : BufTy).Contents (Elt Ideal))
    (x4 : (⟨S1000x40, .f32⟩ : BufTy).Contents (Elt Ideal)) (x5 : (⟨S40, .f32⟩ : BufTy).Contents (Elt Ideal))
    (x6 : (⟨S40x1, .f32⟩ : BufTy).Contents (Elt Ideal)) (x7 : (⟨S1, .f32⟩ : BufTy).Contents (Elt Ideal)) :
    ReadP.val_main_v24 (F := Ideal) x0 x1 x2 x3 x4 x5 x6 x7
      = tailR (Cert.MlpSpec.probs x0 x2 x3 x4 x5 x6 x7) x1 := by
  rw [val_v24_tail, ref_probs]

/-- Every weakly fair execution of the reference terminates with its result the shared tail applied to the
    probabilities of MlpSpec (of the arguments' launch contents), the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = tailR (Cert.MlpSpec.probs (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans
      ((ReadP.val_main_v24_eq (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))).trans
        (val_v24_spec (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))),
      (h c).2⟩)
    (ValueP.run (F := Ideal) m ρ)

end Cert.ReferenceIdeal.RefSpec

end
-- ==== Proof.lean ====
/-
  The certificate of a three-layer perceptron head written as one fused kernel, against its plain reference.

  Both programs take activations X[16,512,9984], an int32 index array of shape [16,512], and the weights and biases
  W1[9984,1000], b1[1000], W2[1000,40], b2[40], W3[40,1], b3[1]. Both compute, for every batch b and position s,

      prob b s = sigmoid ((∑ k, relu ((∑ h, relu ((∑ d, X[b,s,d] · W1[d,h]) + b1[h]) · W2[h,k]) + b2[k]) · W3[k,0]) + b3[0])

  and then apply the same host tail to the [16,512,1] array of the probabilities: drop the unit axis, gather along the
  positions with the index array, and keep the gathered value where the index is not zero.

  The reference contracts the hidden axis of length 9984 in one dot_general. The kernel walks a grid of 16 batches by
  6 steps; at each step it adds to a [512,1000] accumulator the product of a [512,1664] block of activations with the
  matching 1664 rows of W1 (zeroing the accumulator at step 0), and at step 5 it runs the two small layers and the
  sigmoid on the finished accumulator and writes the batch's output block. Over the extended reals the six partial
  contractions add up to the whole one by associativity and commutativity of the sum alone, the changes of float
  format are the identity, and the kernel's sigmoid is by definition the reference's 1 / (1 + exp (−x)); so both
  programs produce the same array, and no finiteness of the inputs is used.

  The frames of the two kernel programs are the generated ones; the reference's frame is its run with the result
  dropped; the idealization rewrote nothing, so `preserves` is trivial.
-/
import proofs.«166316_j83159156785839_2_alg».proof.Defs
import proofs.«166316_j83159156785839_2_alg».proof.Proof.Gen.Kernel
import proofs.«166316_j83159156785839_2_alg».proof.Proof.Gen.Kernel.Skeleton
import proofs.«166316_j83159156785839_2_alg».proof.Proof.Gen.Kernel.Launch
import proofs.«166316_j83159156785839_2_alg».proof.Proof.Gen.Kernel.Points
import proofs.«166316_j83159156785839_2_alg».proof.Proof.Gen.Kernel.Frame
import proofs.«166316_j83159156785839_2_alg».proof.Proof.Gen.KernelIdeal
import proofs.«166316_j83159156785839_2_alg».proof.Proof.Gen.KernelIdeal.Skeleton
import proofs.«166316_j83159156785839_2_alg».proof.Proof.Gen.KernelIdeal.Launch
import proofs.«166316_j83159156785839_2_alg».proof.Proof.Gen.KernelIdeal.Points
import proofs.«166316_j83159156785839_2_alg».proof.Proof.Gen.KernelIdeal.Frame
import proofs.«166316_j83159156785839_2_alg».proof.Proof.Gen.ReferenceIdeal
import proofs.«166316_j83159156785839_2_alg».proof.Proof.Gen.Pre_finite_inputs
import proofs.«166316_j83159156785839_2_alg».proof.Proof.KernelAccum
import proofs.«166316_j83159156785839_2_alg».proof.Proof.KernelFinal
import proofs.«166316_j83159156785839_2_alg».proof.Proof.KernelTail
import proofs.«166316_j83159156785839_2_alg».proof.Proof.RefIsSpec
import Idealize.ShloMosaic.Adequacy
import Idealize.ShloMosaic.Init

noncomputable section

namespace Cert.Proof

open Idealize.ShloMosaic Idealize.ShloMosaic.TcCoe Idealize.SL.Sem

/-- The two programs' tails are the same operations. -/
theorem tail_same (P : (⟨Cert.KernelIdeal.S16x512x1, .f32⟩ : BufTy).Contents (Elt Ideal))
    (x1 : (⟨Cert.KernelIdeal.S16x512, .i32⟩ : BufTy).Contents (Elt Ideal)) :
    Cert.KernelIdeal.Tail.tailK P x1 = Cert.ReferenceIdeal.RefSpec.tailR P x1 := rfl

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefSpec.run_spec m ρ)

theorem preserves : Cert.preserves_Kernel_KernelIdeal := trivial

/-- From memories that agree on the arguments the kernel's result array ends at the tail of the probabilities of its
    arguments, the reference's at the same tail of the same probabilities of its own. -/
theorem algebraic : Cert.algebraic_KernelIdeal_ReferenceIdeal := by
  intro m ρ m' ρ' _ hagree
  refine ⟨fun c => Cert.KernelIdeal.Tail.tailK (Cert.MlpSpec.probs (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg1)),
    Cert.KernelIdeal.Tail.run m (fun c => Cert.KernelIdeal.Final.final7 m (Cert.KernelIdeal.Accum.out_at m) c) ρ, ?_⟩
  refine (θ_run Cert.ReferenceIdeal.defs _ _).mono (fun _ h c => ⟨(h c).1.trans ?_, (h c).2⟩)
    (Cert.ReferenceIdeal.RefSpec.run_spec m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (tail_same _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
